-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v56)) (v1 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_v57) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x128x128 : Shape := ⟨3, ![2, 128, 128]⟩
abbrev S2x128 : Shape := ⟨2, ![2, 128]⟩
abbrev S2x1600000 : Shape := ⟨2, ![2, 1600000]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_

variable [Facts]

def fn_part1 {F : FTy → Type} [FloatOps F] (main_arg4 : FVec F S2x128x128 .f32) (main_v13 : IVec S_ 1) (main_v16 : IVec S2x128 1) : IVec S_ 1 :=
  let main_c_5 : IVec S_ 1 := constantI S_ 1 1#1
  let main_v17 : IVec S_ 1 := (fun x v => Host.reduce IntOp.andi x v reducesTo_S2x128_S_d0_1 h_S_) main_v16 main_c_5
  let main_v18 : IVec S_ 1 := andi main_v13 main_v17
  let main_v19 : FVec F S2x128x128 .f32 := Host.absf main_arg4
  let main_cst_6 : FVec F S_ .f32 := constant S_ .f32 0x7F800000#32
  let main_v20 : FVec F S2x128x128 .f32 := broadcastInDim S2x128x128 ![] bcast_S_S2x128x128 main_cst_6
  let main_v21 : IVec S2x128x128 1 := cmpf .olt main_v19 main_v20
  let main_c_7 : IVec S_ 1 := constantI S_ 1 1#1
  let main_v22 : IVec S_ 1 := (fun x v => Host.reduce IntOp.andi x v reducesTo_S2x128x128_S_d0_1_2 h_S_) main_v21 main_c_7
  let main_v23 : IVec S_ 1 := andi main_v18 main_v22
  main_v23

def fn {F : FTy → Type} [FloatOps F] (main_arg0 : FVec F S50000x128 .f32) (main_arg1 : FVec F S50000x128 .f32) (main_arg2 : FVec F S2x128x128 .f32) (main_arg3 : FVec F S2x128 .f32) (main_arg4 : FVec F S2x128x128 .f32) (main_arg5 : IVec S2x1600000 32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S50000x128 .f32 := Host.absf main_arg1
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S2x128x128 .f32 := Host.absf main_arg2
  let main_cst_2 : FVec F S_ .f32 := constant S_ .f32 0x7F800000#32
  let main_v10 : FVec F S2x128x128 .f32 := broadcastInDim S2x128x128 ![] bcast_S_S2x128x128 main_cst_2
  let main_v11 : IVec S2x128x128 1 := cmpf .olt main_v9 main_v10
  let main_c_3 : IVec S_ 1 := constantI S_ 1 1#1
  let main_v12 : IVec S_ 1 := (fun x v => Host.reduce IntOp.andi x v reducesTo_S2x128x128_S_d0_1_2 h_S_) main_v11 main_c_3
  let main_v13 : IVec S_ 1 := andi main_v8 main_v12
  let main_v14 : FVec F S2x128 .f32 := Host.absf main_arg3
  let main_cst_4 : FVec F S_ .f32 := constant S_ .f32 0x7F800000#32
  let main_v15 : FVec F S2x128 .f32 := broadcastInDim S2x128 ![] bcast_S_S2x128 main_cst_4
  let main_v16 : IVec S2x128 1 := cmpf .olt main_v14 main_v15
  fn_part1 (F := F) main_arg4 main_v13 main_v16
-- ==== Kernel.lean ====
abbrev S50000x128 : Shape := ⟨2, ![50000, 128]⟩
abbrev S2x128x128 : Shape := ⟨3, ![2, 128, 128]⟩
abbrev S2x128 : Shape := ⟨2, ![2, 128]⟩
abbrev S2x1600000 : Shape := ⟨2, ![2, 1600000]⟩
abbrev S100000x128 : Shape := ⟨2, ![100000, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S4000x128 : Shape := ⟨2, ![4000, 128]⟩
abbrev S4000x1 : Shape := ⟨2, ![4000, 1]⟩

abbrev nBuf : Space → Nat
  | .hbm => 74
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S2x128x128, .f32⟩
  | .hbm, ⟨3, _⟩ => ⟨S2x128, .f32⟩
  | .hbm, ⟨4, _⟩ => ⟨S2x128x128, .f32⟩
  | .hbm, ⟨5, _⟩ => ⟨S2x1600000, .i32⟩
  | .hbm, ⟨6, _⟩ => ⟨S100000x128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S2x128x128, .f32⟩
  | .hbm, ⟨25, _⟩ => ⟨S2x128x128, .f32⟩
  | .hbm, ⟨26, _⟩ => ⟨S100000x128, .bf16⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .bf16⟩
  | .hbm, ⟨36, _⟩ => ⟨S1600000x128, .f32⟩
  | .hbm, ⟨37, _⟩ => ⟨S_, .f32⟩
  | .hbm, ⟨38, _⟩ => ⟨S100000x128, .f32⟩
  | .hbm, ⟨39, _⟩ => ⟨S1600000x1, .i32⟩
  | .hbm, ⟨40, _⟩ => ⟨S100000x128, .f32⟩
  | .hbm, ⟨41, _⟩ => ⟨S1x128x128, .f32⟩
  | .hbm, ⟨42, _⟩ => ⟨S128x128, .f32⟩
  | .hbm, ⟨43, _⟩ => ⟨S1x128x128, .f32⟩
  | .hbm, ⟨44, _⟩ => ⟨S128x128, .f32⟩
  | .hbm, ⟨45, _⟩ => ⟨S1x128, .f32⟩
  | .hbm, ⟨46, _⟩ => ⟨S128, .f32⟩
  | .hbm, ⟨47, _⟩ => ⟨S1x128, .f32⟩
  | .hbm, ⟨48, _⟩ => ⟨S100000x128, .bf16⟩
  | .hbm, ⟨49, _⟩ => ⟨S_, .i32⟩
  | .hbm, ⟨50, _⟩ => ⟨S1600000, .i32⟩
  | .hbm, ⟨51, _⟩ => ⟨S1600000, .i1⟩
  | .hbm, ⟨52, _⟩ => ⟨S_, .i32⟩
  | .hbm, ⟨53, _⟩ => ⟨S1600000, .i32⟩
  | .hbm, ⟨54, _⟩ => ⟨S1600000, .i32⟩
  | .hbm, ⟨55, _⟩ => ⟨S1600000, .i32⟩
  | .hbm, ⟨56, _⟩ => ⟨S1600000x1, .i32⟩
  | .hbm, ⟨57, _⟩ => ⟨S1600000x128, .bf16⟩
  | .hbm, ⟨58, _⟩ => ⟨S1600000x128, .f32⟩
  | .hbm, ⟨59, _⟩ => ⟨S_, .f32⟩
  | .hbm, ⟨60, _⟩ => ⟨S100000x128, .f32⟩
  | .hbm, ⟨61, _⟩ => ⟨S1600000x1, .i32⟩
  | .hbm, ⟨62, _⟩ => ⟨S100000x128, .f32⟩
  | .hbm, ⟨63, _⟩ => ⟨S1x128x128, .f32⟩
  | .hbm, ⟨64, _⟩ => ⟨S128x128, .f32⟩
  | .hbm, ⟨65, _⟩ => ⟨S1x128x128, .f32⟩
  | .hbm, ⟨66, _⟩ => ⟨S128x128, .f32⟩
  | .hbm, ⟨67, _⟩ => ⟨S1x128, .f32⟩
  | .hbm, ⟨68, _⟩ => ⟨S128, .f32⟩
  | .hbm, ⟨69, _⟩ => ⟨S1x128, .f32⟩
  | .hbm, ⟨70, _⟩ => ⟨S100000x128, .bf16⟩
  | .hbm, ⟨71, _⟩ => ⟨S100000x128, .f32⟩
  | .hbm, ⟨72, _⟩ => ⟨S50000x128, .f32⟩
  | .hbm, ⟨73, _⟩ => ⟨S50000x128, .f32⟩
  | .local _ .vmem, ⟨0, _⟩ => ⟨S4000x128, .f32⟩
  | .local _ .vmem, ⟨1, _⟩ => ⟨S4000x128, .f32⟩
  | .local _ .vmem, ⟨2, _⟩ => ⟨S4000x1, .f32⟩
  | .local _ .vmem, ⟨3, _⟩ => ⟨S4000x1, .f32⟩
  | .local _ .vmem, ⟨4, _⟩ => ⟨S4000x128, .bf16⟩
  | .local _ .vmem, ⟨5, _⟩ => ⟨S4000x128, .bf16⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S4000x128, .bf16⟩
  | .local _ .vmem, ⟨10, _⟩ => ⟨S4000x128, .bf16⟩
  | .local _ .vmem, ⟨11, _⟩ => ⟨S4000x128, .f32⟩
  | .local _ .vmem, ⟨12, _⟩ => ⟨S4000x128, .f32⟩
  | .local _ .vmem, ⟨13, _⟩ => ⟨S4000x1, .f32⟩
  | .local _ .vmem, ⟨14, _⟩ => ⟨S4000x1, .f32⟩
  | .local _ .vmem, ⟨15, _⟩ => ⟨S4000x128, .bf16⟩
  | .local _ .vmem, ⟨16, _⟩ => ⟨S4000x128, .bf16⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S4000x128, .bf16⟩
  | .local _ .vmem, ⟨21, _⟩ => ⟨S4000x128, .bf16⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_c_5 : Ref sig .tc := ⟨.hbm, 49, rfl⟩
abbrev main_v36 : Ref sig .tc := ⟨.hbm, 50, rfl⟩
abbrev main_v37 : Ref sig .tc := ⟨.hbm, 51, rfl⟩
abbrev main_c_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4000x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S4000x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  concatenates_S50000x128_S50000x128_S100000x128_d0 : Shape.Concatenates [S50000x128, S50000x128] S100000x128 0
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  transposes_S2x128x128_S2x128x128_0_2_1 : S2x128x128.Transposes [0, 2, 1] S2x128x128
  bitsLt_bf16_f32 : FTy.bits .bf16 < FTy.bits .f32
  bcast_S_S100000x128 : S_.BroadcastsInDim S100000x128 (![] : Fin 0 → Fin S100000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S4000x1_S4000x128 : S4000x1.Broadcasts S4000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  packedbf16_S4000x128_S4000x128_0_0 : (Rect.unit (s := S4000x128) ![0, 0] S4000x128.size inb_S4000x128_S4000x128_0_0).PackedRows (EltTy.packing .bf16)
  slices_S2x128x128_S1x128x128_1_0_0 : S2x128x128.Slices ![1, 0, 0] S1x128x128
  slices_S2x128_S1x128_1_0 : S2x128.Slices ![1, 0] S1x128
  slices_S100000x128_S50000x128_0_0 : S100000x128.Slices ![0, 0] S50000x128
  slices_S100000x128_S50000x128_50000_0 : S100000x128.Slices ![50000, 0] S50000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x1.size a ≤ S100000x1.size a
  hwx0_1 : ∀ i : grid0.Coords, EltTy.bits .f32 = 32 ∨ (Rect.block (s := S100000x1) S4000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .bf16 = 32 ∨ (Rect.block (s := S100000x128) S4000x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4000x128.size a ≤ S100000x128.size a
  hwx0_6 : ∀ i : grid0.Coords, EltTy.bits .bf16 = 32 ∨ (Rect.block (s := S100000x128) S4000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4000x1.size a ≤ S100000x1.size a
  hwx1_1 : ∀ i : grid1.Coords, EltTy.bits .f32 = 32 ∨ (Rect.block (s := S100000x1) S4000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x128.size a ≤ S100000x128.size a
  hwx1_2 : ∀ i : grid1.Coords, EltTy.bits .bf16 = 32 ∨ (Rect.block (s := S100000x128) S4000x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4000x128.size a ≤ S100000x128.size a
  hwx1_6 : ∀ i : grid1.Coords, EltTy.bits .bf16 = 32 ∨ (Rect.block (s := S100000x128) S4000x128.size (cc1_transform_6 i) (hinb1_6 i)).WholeWords (EltTy.packing .bf16)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v27) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S4000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S4000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v31) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v34) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v35) S4000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v46) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S4000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S4000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v48) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v50) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v53) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v54) S4000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x128x128 : Shape := ⟨3, ![2, 128, 128]⟩
abbrev S2x128 : Shape := ⟨2, ![2, 128]⟩
abbrev S2x1600000 : Shape := ⟨2, ![2, 1600000]⟩
abbrev S100000x128 : Shape := ⟨2, ![100000, 128]⟩
abbrev S1x1600000 : Shape := ⟨2, ![1, 1600000]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S1600000x128 : Shape := ⟨2, ![1600000, 128]⟩
abbrev S100000x1 : Shape := ⟨2, ![100000, 1]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 91
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S50000x128, .f32⟩
  | .hbm, ⟨2, _⟩ => ⟨S2x128x128, .f32⟩
  | .hbm, ⟨3, _⟩ => ⟨S2x128, .f32⟩
  | .hbm, ⟨4, _⟩ => ⟨S2x128x128, .f32⟩
  | .hbm, ⟨5, _⟩ => ⟨S2x1600000, .i32⟩
  | .hbm, ⟨6, _⟩ => ⟨S100000x128, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S_, .f32⟩
  | .hbm, ⟨12, _⟩ => ⟨S1600000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000x128, .f32⟩
  | .hbm, ⟨32, _⟩ => ⟨S_, .f32⟩
  | .hbm, ⟨33, _⟩ => ⟨S100000x128, .f32⟩
  | .hbm, ⟨34, _⟩ => ⟨S1600000x1, .i32⟩
  | .hbm, ⟨35, _⟩ => ⟨S100000x128, .f32⟩
  | .hbm, ⟨36, _⟩ => ⟨S100000x1, .f32⟩
  | .hbm, ⟨37, _⟩ => ⟨S100000x128, .f32⟩
  | .hbm, ⟨38, _⟩ => ⟨S100000x128, .f32⟩
  | .hbm, ⟨39, _⟩ => ⟨S1x128x128, .f32⟩
  | .hbm, ⟨40, _⟩ => ⟨S128x128, .f32⟩
  | .hbm, ⟨41, _⟩ => ⟨S128x128, .f32⟩
  | .hbm, ⟨42, _⟩ => ⟨S100000x128, .f32⟩
  | .hbm, ⟨43, _⟩ => ⟨S1x128, .f32⟩
  | .hbm, ⟨44, _⟩ => ⟨S128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S1x128x128, .f32⟩
  | .hbm, ⟨49, _⟩ => ⟨S128x128, .f32⟩
  | .hbm, ⟨50, _⟩ => ⟨S128x128, .f32⟩
  | .hbm, ⟨51, _⟩ => ⟨S100000x128, .f32⟩
  | .hbm, ⟨52, _⟩ => ⟨S100000x128, .f32⟩
  | .hbm, ⟨53, _⟩ => ⟨S_, .f32⟩
  | .hbm, ⟨54, _⟩ => ⟨S100000x128, .f32⟩
  | .hbm, ⟨55, _⟩ => ⟨S100000x128, .f32⟩
  | .hbm, ⟨56, _⟩ => ⟨S_, .i32⟩
  | .hbm, ⟨57, _⟩ => ⟨S1600000, .i32⟩
  | .hbm, ⟨58, _⟩ => ⟨S1600000, .i1⟩
  | .hbm, ⟨59, _⟩ => ⟨S_, .i32⟩
  | .hbm, ⟨60, _⟩ => ⟨S1600000, .i32⟩
  | .hbm, ⟨61, _⟩ => ⟨S1600000, .i32⟩
  | .hbm, ⟨62, _⟩ => ⟨S1600000, .i32⟩
  | .hbm, ⟨63, _⟩ => ⟨S1600000x1, .i32⟩
  | .hbm, ⟨64, _⟩ => ⟨S1600000x128, .f32⟩
  | .hbm, ⟨65, _⟩ => ⟨S_, .f32⟩
  | .hbm, ⟨66, _⟩ => ⟨S100000x128, .f32⟩
  | .hbm, ⟨67, _⟩ => ⟨S1600000x1, .i32⟩
  | .hbm, ⟨68, _⟩ => ⟨S100000x128, .f32⟩
  | .hbm, ⟨69, _⟩ => ⟨S100000x1, .f32⟩
  | .hbm, ⟨70, _⟩ => ⟨S100000x128, .f32⟩
  | .hbm, ⟨71, _⟩ => ⟨S100000x128, .f32⟩
  | .hbm, ⟨72, _⟩ => ⟨S1x128x128, .f32⟩
  | .hbm, ⟨73, _⟩ => ⟨S128x128, .f32⟩
  | .hbm, ⟨74, _⟩ => ⟨S128x128, .f32⟩
  | .hbm, ⟨75, _⟩ => ⟨S100000x128, .f32⟩
  | .hbm, ⟨76, _⟩ => ⟨S1x128, .f32⟩
  | .hbm, ⟨77, _⟩ => ⟨S128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S1x128x128, .f32⟩
  | .hbm, ⟨82, _⟩ => ⟨S128x128, .f32⟩
  | .hbm, ⟨83, _⟩ => ⟨S128x128, .f32⟩
  | .hbm, ⟨84, _⟩ => ⟨S100000x128, .f32⟩
  | .hbm, ⟨85, _⟩ => ⟨S100000x128, .f32⟩
  | .hbm, ⟨86, _⟩ => ⟨S_, .f32⟩
  | .hbm, ⟨87, _⟩ => ⟨S100000x128, .f32⟩
  | .hbm, ⟨88, _⟩ => ⟨S100000x128, .f32⟩
  | .hbm, ⟨89, _⟩ => ⟨S50000x128, .f32⟩
  | .hbm, ⟨90, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_call0_cst : Ref sig .tc := ⟨.hbm, 53, rfl⟩
abbrev main_call0_v0 : Ref sig .tc := ⟨.hbm, 54, rfl⟩
abbrev main_v40 : Ref sig .tc := ⟨.hbm, 55, rfl⟩
abbrev main_c_5 : Ref sig .tc := ⟨.hbm, 56, rfl⟩
abbrev main_v41 : Ref sig .tc := ⟨.hbm, 57, rfl⟩
abbrev main_v42 : Ref sig .tc := ⟨.hbm, 58, rfl⟩
abbrev main_c_6 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_7 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_call1_cst : Ref sig .tc := ⟨.hbm, 86, rfl⟩
abbrev main_call1_v0 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩

abbrev nD : Nat := 1
abbrev τ : Topo := Topo.v7x

variable {F : FTy → Type} [FloatOps F]

class Facts₀ : Prop where
  concatenates_S50000x128_S50000x128_S100000x128_d0 : Shape.Concatenates [S50000x128, S50000x128] S100000x128 0
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  slices_S2x128x128_S1x128x128_0_0_0 : S2x128x128.Slices ![0, 0, 0] S1x128x128
  shapeCasts_S1x128x128_S128x128 : S1x128x128.ShapeCasts S128x128
  transposes_S128x128_S128x128_1_0 : S128x128.Transposes [1, 0] S128x128
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x128x128_S1x128x128_1_0_0 : S2x128x128.Slices ![1, 0, 0] S1x128x128
  slices_S2x128_S1x128_1_0 : S2x128.Slices ![1, 0] S1x128
  slices_S100000x128_S50000x128_0_0 : S100000x128.Slices ![0, 0] S50000x128
  slices_S100000x128_S50000x128_50000_0 : S100000x128.Slices ![50000, 0] S50000x128
  scatter_S100000_S1600000x1_S1600000_n_0_0_1_wf : ScatterDims.WF S100000 S1600000x1 S1600000 [] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelRun.lean ====
import proofs.«160222_j6408091206350_2_alg».proof.Proof.Gen.KernelIdeal.Frame

/-!
# The idealized kernel program's run, with the contents of its result buffers

The program is two kernel regions among three stretches of host operations.  The generated frame module
folds the buffer contents through the five segments (`Gen.W0` … `Gen.W5`) and shows that the argument arrays
end as launched.  Here the same run is read at the two result buffers as well: every weakly fair execution
terminates, and in every final state each result buffer holds the last boundary's contents `Gen.W5`.
-/

-- membership in a rectangle of the long axes' extents: the elaborator's structural look recurses once per coordinate
set_option maxRecDepth 16384

noncomputable section

namespace Cert.KernelIdeal.ValueRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters, every weakly fair execution of the program on the TensorCores terminates,
    nothing faulting, and in every final state each of the two result buffers holds the contents of the last
    segment boundary (`Gen.W5`: the last stretch of host operations applied to what the second region leaves),
    while the six argument arrays are as launched.  The thread state at the end holds EVERY unscoped buffer at
    `Gen.W5`; the frame statement keeps the six arguments of it, this one keeps the two results too. -/
theorem run : θ_run defs (onTc (τ := τ) (main (F := F))) ⟨m, fun _ => 0, ρ⟩ (fun r => ∀ c : Dev nD,
      r.2.mem ((c.tc : Thread nD τ).loc main_v56) = Gen.W5 m ρ c (Proc.devRef .tc main_v56)
      ∧ r.2.mem ((c.tc : Thread nD τ).loc main_v57) = Gen.W5 m ρ c (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) Gen.adm (Gen.pdats m ρ) () Gen.cellOf_inj emb₁ defs₀ Gen.𝒱₀ Gen.L Gen.lv m ρ main (Gen.segs m ρ)
    (fun c Q => by rw [Gen.main_run m ρ c])
    (by simp only [Gen.segs, Pipeline.Seg.pipes_host, Pipeline.Seg.pipes_region, Pipeline.Seg.pipes_nil]; decide)
    (O₀ := 0) (hL := fun _ _ => rfl) (G := fun _ => iprop(emp))
    (u₀ := initOf (Pipeline.cells cfgs Gen.cellOf_inj) (Pipeline.launchToks cfgs Gen.cellOf_inj))
    (hu₀ := by
      iintro Hu; imodintro
      isplitl [Hu]
      · iapply (show (ownU (initOf (Pipeline.cells cfgs Gen.cellOf_inj) (Pipeline.launchToks cfgs Gen.cellOf_inj)) : sProp 𝕄)
            ⊢ BI.own (emb₁ (initOf (Pipeline.cells cfgs Gen.cellOf_inj) (Pipeline.launchToks cfgs Gen.cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.W0 m ρ c) ∗ Gen.R c)) (Tₙ := Gen.Tₙ m ρ)
    (hch := ⟨fun _ => .rfl, fun _ => .rfl, fun _ => .rfl, fun _ => .rfl, fun _ => .rfl, fun c => by
      dsimp only [Pipeline.Seg.post, Gen.hseg, Pipeline.HostSeg.ofOps]
      iintro ⟨Hh, Hp, HO⟩
      isplitl [Hh Hp]
      · isplitl [Hh]; · iexact Hh
        iexact Hp
      iexact HO⟩)
    (hinit := by
      refine Pipeline.initEach Gen.L Gen.lv fun c => ?_
      rw [show unscopedBufs c (fun b => m ((c : Thread nD τ).loc b)) = StableHlo.held (c : Thread nD τ) (Pipeline.ucRefs τ sig) (Gen.W0 m ρ c)
        from Pipeline.unscopedBufs_held c (Gen.W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Gen.W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (Gen.W5 m ρ c) s')
      isplitl [Hh] <;> iassumption)
    (hQ := fun s h c =>
      ⟨h c _ (Gen.mem_uc main_v56 (by decide)),
       h c _ (Gen.mem_uc main_v57 (by decide)),
       (h c _ (Gen.mem_uc main_arg0 (by decide))).trans (Gen.W5_main_arg0 m ρ c),
       (h c _ (Gen.mem_uc main_arg1 (by decide))).trans (Gen.W5_main_arg1 m ρ c),
       (h c _ (Gen.mem_uc main_arg2 (by decide))).trans (Gen.W5_main_arg2 m ρ c),
       (h c _ (Gen.mem_uc main_arg3 (by decide))).trans (Gen.W5_main_arg3 m ρ c),
       (h c _ (Gen.mem_uc main_arg4 (by decide))).trans (Gen.W5_main_arg4 m ρ c),
       (h c _ (Gen.mem_uc main_arg5 (by decide))).trans (Gen.W5_main_arg5 m ρ c)⟩)

/-! ## The last stretch of host operations, read at the two result buffers

The last boundary's contents are the last stretch — widen the second region's output array to `f32`, then take its
first and its second 50000 rows — applied to what the second region leaves (`Gen.W4`), and the second region leaves
its output array (window 6) at the fold of its write-backs over the whole grid. -/

/-- The second region's seventh window is over the array the last stretch converts. -/
theorem arrRef_out : Pipeline.arrRef spec1 (6 : Fin cfg1.W) = main_v54 := rfl

/-- What the second region leaves in its output array: the write-backs folded over the whole grid. -/
theorem W4_out (c : Dev nD) :
    Gen.W4 m ρ c (Proc.devRef .tc main_v54) = (Gen.dat1 (Gen.V3 m ρ) c).arrAt (6 : Fin cfg1.W) cfg1.N :=
  Gen.W4_arr m ρ c 6

/-- The first result: rows 0 … 49999 of the second region's output array widened to `f32`. -/
theorem out0_eq (c : Dev nD) :
    Gen.W5 m ρ c (Proc.devRef .tc main_v56)
      = extractStridedSlice S50000x128 ![0, 0]
          (extf .f32 ((Gen.dat1 (Gen.V3 m ρ) c).arrAt (6 : Fin cfg1.W) cfg1.N) Gen.bitsLt_bf16_f32)
          Gen.slices_S100000x128_S50000x128_0_0 := by
  show StableHlo.after Gen.hostOps2 _ (Proc.devRef .tc main_v56) = _
  dsimp only [Gen.hostOps2]
  after_results
  rw [W4_out m ρ c]

/-- The second result: rows 50000 … 99999 of the second region's output array widened to `f32`. -/
theorem out1_eq (c : Dev nD) :
    Gen.W5 m ρ c (Proc.devRef .tc main_v57)
      = extractStridedSlice S50000x128 ![50000, 0]
          (extf .f32 ((Gen.dat1 (Gen.V3 m ρ) c).arrAt (6 : Fin cfg1.W) cfg1.N) Gen.bitsLt_bf16_f32)
          Gen.slices_S100000x128_S50000x128_50000_0 := by
  show StableHlo.after Gen.hostOps2 _ (Proc.devRef .tc main_v57) = _
  dsimp only [Gen.hostOps2]
  after_results
  rw [W4_out m ρ c]

end Cert.KernelIdeal.ValueRun

end
-- ==== Proof.KernelHost.lean ====
import proofs.«160222_j6408091206350_2_alg».proof.Proof.Gen.KernelIdeal.Frame

/-!
# The host operations before the two kernel regions, as functions of the argument arrays

Each buffer a region reads was written by a stretch of host operations from the argument arrays (and, for the
second region, from the first region's output array).  Here those buffers are named as plain functions of the
arrays — the stacked node features, the two index columns, the inverse in-degree column, the neighbour sum, the
weight blocks and bias rows — and the entry contents of each region (`Gen.V1`, `Gen.V3`) are read back to them.
-/

set_option maxRecDepth 16384

noncomputable section

namespace Cert.KernelIdeal.HostValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The buffers as functions of the arrays -/

/-- The two halves of the node features stacked: rows 0 … 49999 from the first, 50000 … 99999 from the second. -/
def nodes (x0 x1 : (⟨S50000x128, .f32⟩ : BufTy).Contents (Elt F)) : (⟨S100000x128, .f32⟩ : BufTy).Contents (Elt F) :=
  concatenate S100000x128 0 [⟨S50000x128, x0⟩, ⟨S50000x128, x1⟩] Gen.concatenates_S50000x128_S50000x128_S100000x128_d0

/-- Row 0 of the edge list (the source of each edge), as a vector. -/
def srcRaw (x5 : (⟨S2x1600000, .i32⟩ : BufTy).Contents (Elt F)) : (⟨S1600000, .i32⟩ : BufTy).Contents (Elt F) :=
  shapeCast S1600000 (extractStridedSlice S1x1600000 ![0, 0] x5 Gen.slices_S2x1600000_S1x1600000_0_0) Gen.shapeCasts_S1x1600000_S1600000

/-- Row 1 of the edge list (the destination of each edge), as a vector. -/
def dstRaw (x5 : (⟨S2x1600000, .i32⟩ : BufTy).Contents (Elt F)) : (⟨S1600000, .i32⟩ : BufTy).Contents (Elt F) :=
  shapeCast S1600000 (extractStridedSlice S1x1600000 ![1, 0] x5 Gen.slices_S2x1600000_S1x1600000_1_0) Gen.shapeCasts_S1x1600000_S1600000

/-- The destinations as a column of scatter indices. -/
def dstIdx (x5 : (⟨S2x1600000, .i32⟩ : BufTy).Contents (Elt F)) : (⟨S1600000x1, .i32⟩ : BufTy).Contents (Elt F) :=
  broadcastInDim S1600000x1 ![0] Gen.bcast_S1600000_S1600000x1_0 (dstRaw (F := F) x5)

/-- The sources as a column of gather indices, a negative one wrapped by the number of nodes. -/
def srcIdx (x5 : (⟨S2x1600000, .i32⟩ : BufTy).Contents (Elt F)) : (⟨S1600000x1, .i32⟩ : BufTy).Contents (Elt F) :=
  broadcastInDim S1600000x1 ![0] Gen.bcast_S1600000_S1600000x1_0
    (select (cmpi .slt (srcRaw (F := F) x5) (broadcastInDim S1600000 ![] Gen.bcast_S_S1600000 (constantI S_ 32 0#32)))
      (addi (srcRaw (F := F) x5) (broadcastInDim S1600000 ![] Gen.bcast_S_S1600000 (constantI S_ 32 100000#32)))
      (srcRaw (F := F) x5))

/-- One over the in-degree of each node (at least one), as a column. -/
def invCol (x5 : (⟨S2x1600000, .i32⟩ : BufTy).Contents (Elt F)) : (⟨S100000x1, .f32⟩ : BufTy).Contents (Elt F) :=
  broadcastInDim S100000x1 ![0] Gen.bcast_S100000_S100000x1_0
    (Host.divf (broadcastInDim S100000 ![] Gen.bcast_S_S100000 (constant (F := F) S_ .f32 0x3F800000#32))
      (maximumf
        (Host.scatterAdd scatter_S100000_S1600000x1_S1600000_n_0_0_1
          (broadcastInDim S100000 ![] Gen.bcast_S_S100000 (constant (F := F) S_ .f32 0x00000000#32))
          (dstIdx (F := F) x5)
          (broadcastInDim S1600000 ![] Gen.bcast_S_S1600000 (constant (F := F) S_ .f32 0x3F800000#32)))
        (broadcastInDim S100000 ![] Gen.bcast_S_S100000 (constant (F := F) S_ .f32 0x3F800000#32))))

/-- The neighbour sum: each edge's source row of `X`, widened, added into its destination row. -/
def agg (X : (⟨S100000x128, .bf16⟩ : BufTy).Contents (Elt F)) (x5 : (⟨S2x1600000, .i32⟩ : BufTy).Contents (Elt F)) :
    (⟨S100000x128, .f32⟩ : BufTy).Contents (Elt F) :=
  Host.scatterAdd scatter_S100000x128_S1600000x1_S1600000x128_1_0_0_1
    (broadcastInDim S100000x128 ![] Gen.bcast_S_S100000x128 (constant (F := F) S_ .f32 0x00000000#32))
    (dstIdx (F := F) x5)
    (extf .f32 (Host.gather gather_S100000x128_S1600000x1_S1600000x128_1_0_n_n_0_1_1128 X (srcIdx (F := F) x5)) Gen.bitsLt_bf16_f32)

/-- Each layer's weight matrix transposed. -/
def wT (w : (⟨S2x128x128, .f32⟩ : BufTy).Contents (Elt F)) : (⟨S2x128x128, .f32⟩ : BufTy).Contents (Elt F) :=
  transpose S2x128x128 [0, 2, 1] w Gen.transposes_S2x128x128_S2x128x128_0_2_1

/-- The first layer's transposed weight matrix. -/
def wBlock0 (w : (⟨S2x128x128, .f32⟩ : BufTy).Contents (Elt F)) : (⟨S128x128, .f32⟩ : BufTy).Contents (Elt F) :=
  shapeCast S128x128 (extractStridedSlice S1x128x128 ![0, 0, 0] (wT w) Gen.slices_S2x128x128_S1x128x128_0_0_0) Gen.shapeCasts_S1x128x128_S128x128

/-- The second layer's transposed weight matrix. -/
def wBlock1 (w : (⟨S2x128x128, .f32⟩ : BufTy).Contents (Elt F)) : (⟨S128x128, .f32⟩ : BufTy).Contents (Elt F) :=
  shapeCast S128x128 (extractStridedSlice S1x128x128 ![1, 0, 0] (wT w) Gen.slices_S2x128x128_S1x128x128_1_0_0) Gen.shapeCasts_S1x128x128_S128x128

/-- The first layer's bias as a row. -/
def bRow0 (x3 : (⟨S2x128, .f32⟩ : BufTy).Contents (Elt F)) : (⟨S1x128, .f32⟩ : BufTy).Contents (Elt F) :=
  shapeCast S1x128 (shapeCast S128 (extractStridedSlice S1x128 ![0, 0] x3 Gen.slices_S2x128_S1x128_0_0) Gen.shapeCasts_S1x128_S128) Gen.shapeCasts_S128_S1x128

/-- The second layer's bias as a row. -/
def bRow1 (x3 : (⟨S2x128, .f32⟩ : BufTy).Contents (Elt F)) : (⟨S1x128, .f32⟩ : BufTy).Contents (Elt F) :=
  shapeCast S1x128 (shapeCast S128 (extractStridedSlice S1x128 ![1, 0] x3 Gen.slices_S2x128_S1x128_1_0) Gen.shapeCasts_S1x128_S128) Gen.shapeCasts_S128_S1x128

variable (m : (ℓ : Loc nD τ sig) → Buf (Elt F) ℓ) (ρ : Dev nD → PrngReg)

/-! ## The first region's entry contents: the first stretch from the launch memory -/

/-- The node features rounded to `bf16`. -/
theorem V1_v16 (c : Dev nD) : Gen.V1 m ρ c main_v16
    = truncf .bf16 (nodes (m ((c.tc : Thread nD τ).loc main_arg0)) (m ((c.tc : Thread nD τ).loc main_arg1))) Gen.bitsLt_bf16_f32 := by
  show StableHlo.after Gen.hostOps0 (Gen.W0 m ρ c) (Proc.devRef .tc main_v16) = _
  dsimp only [Gen.hostOps0]
  after_results_simp
  rfl

/-- The inverse in-degree column. -/
theorem V1_v13 (c : Dev nD) : Gen.V1 m ρ c main_v13 = invCol (m ((c.tc : Thread nD τ).loc main_arg5)) := by
  show StableHlo.after Gen.hostOps0 (Gen.W0 m ρ c) (Proc.devRef .tc main_v13) = _
  dsimp only [Gen.hostOps0]
  after_results_simp
  rfl

/-- The neighbour sum of the rounded node features. -/
theorem V1_v27 (c : Dev nD) : Gen.V1 m ρ c main_v27
    = agg (truncf .bf16 (nodes (m ((c.tc : Thread nD τ).loc main_arg0)) (m ((c.tc : Thread nD τ).loc main_arg1))) Gen.bitsLt_bf16_f32)
        (m ((c.tc : Thread nD τ).loc main_arg5)) := by
  show StableHlo.after Gen.hostOps0 (Gen.W0 m ρ c) (Proc.devRef .tc main_v27) = _
  dsimp only [Gen.hostOps0]
  after_results_simp
  rfl

theorem V1_v29 (c : Dev nD) : Gen.V1 m ρ c main_v29 = wBlock0 (m ((c.tc : Thread nD τ).loc main_arg2)) := by
  show StableHlo.after Gen.hostOps0 (Gen.W0 m ρ c) (Proc.devRef .tc main_v29) = _
  dsimp only [Gen.hostOps0]
  after_results_simp
  rfl

theorem V1_v31 (c : Dev nD) : Gen.V1 m ρ c main_v31 = wBlock0 (m ((c.tc : Thread nD τ).loc main_arg4)) := by
  show StableHlo.after Gen.hostOps0 (Gen.W0 m ρ c) (Proc.devRef .tc main_v31) = _
  dsimp only [Gen.hostOps0]
  after_results_simp
  rfl

theorem V1_v34 (c : Dev nD) : Gen.V1 m ρ c main_v34 = bRow0 (m ((c.tc : Thread nD τ).loc main_arg3)) := by
  show StableHlo.after Gen.hostOps0 (Gen.W0 m ρ c) (Proc.devRef .tc main_v34) = _
  dsimp only [Gen.hostOps0]
  after_results_simp
  rfl

/-! ### The buffers the second stretch reads, as the first stretch left them -/

theorem V1_v2 (c : Dev nD) : Gen.V1 m ρ c main_v2 = srcRaw (m ((c.tc : Thread nD τ).loc main_arg5)) := by
  show StableHlo.after Gen.hostOps0 (Gen.W0 m ρ c) (Proc.devRef .tc main_v2) = _
  dsimp only [Gen.hostOps0]
  after_results_simp
  rfl

theorem V1_v4 (c : Dev nD) : Gen.V1 m ρ c main_v4 = dstRaw (m ((c.tc : Thread nD τ).loc main_arg5)) := by
  show StableHlo.after Gen.hostOps0 (Gen.W0 m ρ c) (Proc.devRef .tc main_v4) = _
  dsimp only [Gen.hostOps0]
  after_results_simp
  rfl

theorem V1_v14 (c : Dev nD) : Gen.V1 m ρ c main_v14 = wT (m ((c.tc : Thread nD τ).loc main_arg2)) := by
  show StableHlo.after Gen.hostOps0 (Gen.W0 m ρ c) (Proc.devRef .tc main_v14) = _
  dsimp only [Gen.hostOps0]
  after_results_simp
  rfl

theorem V1_v15 (c : Dev nD) : Gen.V1 m ρ c main_v15 = wT (m ((c.tc : Thread nD τ).loc main_arg4)) := by
  show StableHlo.after Gen.hostOps0 (Gen.W0 m ρ c) (Proc.devRef .tc main_v15) = _
  dsimp only [Gen.hostOps0]
  after_results_simp
  rfl

theorem V1_arg3 (c : Dev nD) : Gen.V1 m ρ c main_arg3 = m ((c.tc : Thread nD τ).loc main_arg3) := by
  show StableHlo.after Gen.hostOps0 (Gen.W0 m ρ c) (Proc.devRef .tc main_arg3) = _
  dsimp only [Gen.hostOps0]
  after_results_simp

/-! ## The second region's entry contents: the second stretch from what the first region leaves

The first region writes its output array (window 6) and nothing else, so every other buffer the second stretch
reads is as the first stretch left it. -/

/-- The first region's seventh window is over the array the second stretch gathers from. -/
theorem arrRef_out0 : Pipeline.arrRef spec0 (6 : Fin cfg0.W) = main_v35 := rfl

/-- What the first region leaves in its output array: the write-backs folded over the whole grid. -/
theorem W2_v35 (c : Dev nD) :
    Gen.W2 m ρ c (Proc.devRef .tc main_v35) = (Gen.dat0 (Gen.V1 m ρ) c).arrAt (6 : Fin cfg0.W) cfg0.N :=
  Gen.W2_arr m ρ c 6

theorem W2_v2 (c : Dev nD) : Gen.W2 m ρ c (Proc.devRef .tc main_v2) = srcRaw (m ((c.tc : Thread nD τ).loc main_arg5)) :=
  (Gen.W2_of_ne m ρ c main_v2 (by decide)).trans (V1_v2 m ρ c)
theorem W2_v4 (c : Dev nD) : Gen.W2 m ρ c (Proc.devRef .tc main_v4) = dstRaw (m ((c.tc : Thread nD τ).loc main_arg5)) :=
  (Gen.W2_of_ne m ρ c main_v4 (by decide)).trans (V1_v4 m ρ c)
/-- The inverse in-degree column is the first region's second window, an input: the region leaves it as entered. -/
theorem W2_v13 (c : Dev nD) : Gen.W2 m ρ c (Proc.devRef .tc main_v13) = invCol (m ((c.tc : Thread nD τ).loc main_arg5)) := by
  have h1 : Gen.W2 m ρ c (Proc.devRef .tc main_v13) = (Gen.dat0 (Gen.V1 m ρ) c).arrAt (1 : Fin cfg0.W) cfg0.N :=
    Gen.W2_arr m ρ c 1
  have h2 : (Gen.dat0 (Gen.V1 m ρ) c).arrAt (1 : Fin cfg0.W) cfg0.N = Gen.V1 m ρ c main_v13 :=
    (Pipeline.Dat.arrAt_in (Gen.dat0 (Gen.V1 m ρ) c) (1 : Fin cfg0.W) rfl cfg0.N).trans (Gen.A_eq0 (Gen.V1 m ρ) c 1)
  exact h1.trans (h2.trans (V1_v13 m ρ c))
theorem W2_v14 (c : Dev nD) : Gen.W2 m ρ c (Proc.devRef .tc main_v14) = wT (m ((c.tc : Thread nD τ).loc main_arg2)) :=
  (Gen.W2_of_ne m ρ c main_v14 (by decide)).trans (V1_v14 m ρ c)
theorem W2_v15 (c : Dev nD) : Gen.W2 m ρ c (Proc.devRef .tc main_v15) = wT (m ((c.tc : Thread nD τ).loc main_arg4)) :=
  (Gen.W2_of_ne m ρ c main_v15 (by decide)).trans (V1_v15 m ρ c)
theorem W2_arg3 (c : Dev nD) : Gen.W2 m ρ c (Proc.devRef .tc main_arg3) = m ((c.tc : Thread nD τ).loc main_arg3) :=
  (Gen.W2_of_ne m ρ c main_arg3 (by decide)).trans (V1_arg3 m ρ c)

/-- The second region gathers from the first region's output array as left. -/
theorem V3_v35 (c : Dev nD) : Gen.V3 m ρ c main_v35 = (Gen.dat0 (Gen.V1 m ρ) c).arrAt (6 : Fin cfg0.W) cfg0.N := by
  show StableHlo.after Gen.hostOps1 (Gen.W2 m ρ c) (Proc.devRef .tc main_v35) = _
  dsimp only [Gen.hostOps1]
  after_results_simp
  exact W2_v35 m ρ c

/-- The inverse in-degree column is the first stretch's. -/
theorem V3_v13 (c : Dev nD) : Gen.V3 m ρ c main_v13 = invCol (m ((c.tc : Thread nD τ).loc main_arg5)) := by
  show StableHlo.after Gen.hostOps1 (Gen.W2 m ρ c) (Proc.devRef .tc main_v13) = _
  dsimp only [Gen.hostOps1]
  after_results_simp
  exact W2_v13 m ρ c

/-- The neighbour sum of the first region's output. -/
theorem V3_v46 (c : Dev nD) : Gen.V3 m ρ c main_v46
    = agg ((Gen.dat0 (Gen.V1 m ρ) c).arrAt (6 : Fin cfg0.W) cfg0.N) (m ((c.tc : Thread nD τ).loc main_arg5)) := by
  show StableHlo.after Gen.hostOps1 (Gen.W2 m ρ c) (Proc.devRef .tc main_v46) = _
  dsimp only [Gen.hostOps1]
  after_results_simp
  rw [W2_v35 m ρ c, W2_v2 m ρ c, W2_v4 m ρ c]
  rfl

theorem V3_v48 (c : Dev nD) : Gen.V3 m ρ c main_v48 = wBlock1 (m ((c.tc : Thread nD τ).loc main_arg2)) := by
  show StableHlo.after Gen.hostOps1 (Gen.W2 m ρ c) (Proc.devRef .tc main_v48) = _
  dsimp only [Gen.hostOps1]
  after_results_simp
  rw [W2_v14 m ρ c]
  rfl

theorem V3_v50 (c : Dev nD) : Gen.V3 m ρ c main_v50 = wBlock1 (m ((c.tc : Thread nD τ).loc main_arg4)) := by
  show StableHlo.after Gen.hostOps1 (Gen.W2 m ρ c) (Proc.devRef .tc main_v50) = _
  dsimp only [Gen.hostOps1]
  after_results_simp
  rw [W2_v15 m ρ c]
  rfl

theorem V3_v53 (c : Dev nD) : Gen.V3 m ρ c main_v53 = bRow1 (m ((c.tc : Thread nD τ).loc main_arg3)) := by
  show StableHlo.after Gen.hostOps1 (Gen.W2 m ρ c) (Proc.devRef .tc main_v53) = _
  dsimp only [Gen.hostOps1]
  after_results_simp
  rw [W2_arg3 m ρ c]
  rfl

end Cert.KernelIdeal.HostValue

end
-- ==== Proof.LibPlainDot.lean ====
/-
  A matrix product into a zero accumulator, read at coordinates.

  For a dot of a `[M, K]` matrix with a `[K, N]` matrix whose dimension numbers contract the left operand's second axis with
  the right operand's first and keep the other two in order, the product accumulated into the zero splat is, at `(p, c)`,

      ∑ k : Fin K, l (p, k) · r (k, c)

  on the extended reals. The dimension record enters only through four facts about its operand indices — the left index at
  output index `i` and contraction position `q` is `(i 0, q)`, the right one `(q, i 1)` — which a concrete record proves by
  unfolding; with them the sum over the record's one-axis contraction shape is re-indexed over `Fin K`.
-/
import Idealize.ShloMosaic.PureOps.Ideal.Laws
import Idealize.ShloMosaic.Lib.ValueIdx

namespace Cert.Lib.PlainDot

open Idealize.ShloMosaic Idealize.ShloMosaic.ValueIdx

/-- The product of an `[M, K]` and a `[K, N]` matrix into the zero splat at `(p, c)`: the sum over `k` of `l (p, k) · r (k, c)`. -/
theorem matmul_zero_ix2 {M K N : ℕ} {φ₁ φ₂ : FTy}
    (D : DotDims ⟨2, ![M, K]⟩ ⟨2, ![K, N]⟩ ⟨2, ![M, N]⟩) (hr : D.contr.rank = 1) (hs : D.contr.size ⟨0, by omega⟩ = K)
    (hl0 : ∀ (i : (⟨2, ![M, N]⟩ : Shape).Idx) (q : D.contr.Idx), (D.lhsIdx i q (0 : Fin 2)).val = (i (0 : Fin 2)).val)
    (hl1 : ∀ (i : (⟨2, ![M, N]⟩ : Shape).Idx) (q : D.contr.Idx), (D.lhsIdx i q (1 : Fin 2)).val = (q ⟨0, by omega⟩).val)
    (hr0 : ∀ (i : (⟨2, ![M, N]⟩ : Shape).Idx) (q : D.contr.Idx), (D.rhsIdx i q (0 : Fin 2)).val = (q ⟨0, by omega⟩).val)
    (hr1 : ∀ (i : (⟨2, ![M, N]⟩ : Shape).Idx) (q : D.contr.Idx), (D.rhsIdx i q (1 : Fin 2)).val = (i (1 : Fin 2)).val)
    (prec : Option ContractPrecision) (l : FVec Ideal ⟨2, ![M, K]⟩ φ₁) (r : FVec Ideal ⟨2, ![K, N]⟩ φ₂) (p : Fin M) (c : Fin N) :
    FloatOps.matmul D prec l r (constant (F := Ideal) ⟨2, ![M, N]⟩ .f32 0x00000000#32) (ix2 p c)
      = ∑ k : Fin K, l (ix2 p k) * r (ix2 k c) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k := funext fun a => Fin.ext (by
    match a with
    | ⟨0, _⟩ => exact hl0 _ _
    | ⟨1, _⟩ => exact (hl1 _ _).trans hk)
  have er : D.rhsIdx (ix2 p c) ((contrEquiv1 D K hr hs).symm k) = ix2 k c := funext fun a => Fin.ext (by
    match a with
    | ⟨0, _⟩ => exact (hr0 _ _).trans hk
    | ⟨1, _⟩ => exact hr1 _ _)
  rw [el, er]

end Cert.Lib.PlainDot
-- ==== Proof.LibColumns.lean ====
/-
  Column vectors read at coordinates: the three layout steps of a "keepdims" row reduction.

  A reduction over the last axis of an `[a, n]` array gives a vector `[a]`; kept as a COLUMN it is cast to `[a, 1]`,
  and a column is then either broadcast along a new second axis to `[a, b]` (every entry of row `p` is the column's
  entry `p`) or transposed to the row `[1, a]`. Each lemma reads one of these at an index written with coordinates.
-/
import Idealize.ShloMosaic.Lib.Pipeline.Value
import Idealize.ShloMosaic.Lib.ValueIdx
import Idealize.ShloMosaic.Lib.ValueLayout

namespace Cert.Lib.Columns

open Idealize.ShloMosaic Idealize.ShloMosaic.ValueIdx

variable {α : Type}

/-- A vector `[a]` cast to the column `[a, 1]` reads, at `(p, z)`, the vector at `p`, whatever the unit coordinate `z`:
    both indices have row-major position `p`. -/
theorem shapeCast_a_a1_apply {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A column `[a, 1]` transposed to the row `[1, a]` reads, at `(z, p)`, the column's entry `p`. -/
theorem transpose_a1_1a_apply {a : ℕ} (x : (⟨2, ![a, 1]⟩ : Shape).Idx → α)
    (h : (⟨2, ![a, 1]⟩ : Shape).Transposes [1, 0] ⟨2, ![1, a]⟩) (z : Fin 1) (p : Fin a) :
    transpose ⟨2, ![1, a]⟩ [1, 0] x h (ix2 z p) = x (ix2 p z) :=
  transpose_ix2_apply x h z p

end Cert.Lib.Columns
-- ==== Proof.Payload.lean ====
/-
  The body of the layer kernel, read at one entry.

  A grid point holds a block of 4000 nodes: the neighbour sums `a` (4000 x 128), the reciprocal degrees `d` as a
  column (4000 x 1), the node features `x` (4000 x 128), the two weight matrices `wl`, `wr` (128 x 128, input
  channel first) and the bias row `b` (1 x 128). Roundings being the identity on the extended reals, the stored
  value at row `p` and channel `c` is

      max ( (∑ k, (a (p, k) · d (p, 0)) · wl (k, c)) + (∑ k, x (p, k) · wr (k, c)) + b (0, c) ) 0 :

  two matrix products into zero accumulators (plain sums), the bias row repeated down the rows, the rectifier.
-/
import proofs.«160222_j6408091206350_2_alg».proof.Proof.Gen.KernelIdeal.Skeleton
import proofs.«160222_j6408091206350_2_alg».proof.Proof.LibPlainDot
import proofs.«160222_j6408091206350_2_alg».proof.Proof.LibColumns
import Idealize.ShloMosaic.Lib.ValueLayout
import Idealize.ShloMosaic.Lib.Pipeline.Value

noncomputable section

namespace Cert.Sage.Kernel

open Idealize.ShloMosaic Idealize.ShloMosaic.ValueIdx Cert.KernelIdeal Cert.KernelIdeal.Gen

/-- The kernel's form of the layer on whole arrays, at node `r` and channel `c`: neighbour sums `A`, the reciprocal
    degrees as a column `D`, features `X`, the weight matrices input channel first, the bias as a row. -/
def denseAt (A : S100000x128.Idx → EReal) (D : S100000x1.Idx → EReal) (X : S100000x128.Idx → EReal)
    (wl wr : S128x128.Idx → EReal) (b : S1x128.Idx → EReal) (r : Fin 100000) (c : Fin 128) : EReal :=
  max (((∑ k : Fin 128, (A (ix2 r k) * D (ix2 r (0 : Fin 1))) * wl (ix2 k c)) + ∑ k : Fin 128, X (ix2 r k) * wr (ix2 k c))
      + b (ix2 (0 : Fin 1) c)) (Ideal.ofBits .f32 0x00000000#32)

/-- The same as an array. -/
def dense (A : S100000x128.Idx → EReal) (D : S100000x1.Idx → EReal) (X : S100000x128.Idx → EReal)
    (wl wr : S128x128.Idx → EReal) (b : S1x128.Idx → EReal) : S100000x128.Idx → EReal :=
  fun i => denseAt A D X wl wr b (i 0) (i 1)

theorem dense_apply (A : S100000x128.Idx → EReal) (D : S100000x1.Idx → EReal) (X : S100000x128.Idx → EReal)
    (wl wr : S128x128.Idx → EReal) (b : S1x128.Idx → EReal) (i : S100000x128.Idx) :
    dense A D X wl wr b i = denseAt A D X wl wr b (i 0) (i 1) := rfl

/-- The block product's dimension record: its contraction has one axis, of 128 positions. -/
theorem dot_l0 (i : S4000x128.Idx) (q : dot_S4000x128_S128x128_S4000x128_1_0_0_1_n_n.contr.Idx) :
    (dot_S4000x128_S128x128_S4000x128_1_0_0_1_n_n.lhsIdx i q (0 : Fin 2)).val = (i (0 : Fin 2)).val := by
  unfold DotDims.lhsIdx
  rw [dif_neg (show ¬(0 : Fin S4000x128.rank) ∈ dot_S4000x128_S128x128_S4000x128_1_0_0_1_n_n.lhsBatch by decide),
    dif_pos (show (0 : Fin S4000x128.rank) ∈ dot_S4000x128_S128x128_S4000x128_1_0_0_1_n_n.lhsNonContracting by decide)]
  rfl

theorem dot_l1 (i : S4000x128.Idx) (q : dot_S4000x128_S128x128_S4000x128_1_0_0_1_n_n.contr.Idx) :
    (dot_S4000x128_S128x128_S4000x128_1_0_0_1_n_n.lhsIdx i q (1 : Fin 2)).val = (q ⟨0, by decide⟩).val :=
  dot_S4000x128_S128x128_S4000x128_1_0_0_1_n_n.lhsIdx_val_of_single rfl i q

theorem dot_r0 (i : S4000x128.Idx) (q : dot_S4000x128_S128x128_S4000x128_1_0_0_1_n_n.contr.Idx) :
    (dot_S4000x128_S128x128_S4000x128_1_0_0_1_n_n.rhsIdx i q (0 : Fin 2)).val = (q ⟨0, by decide⟩).val :=
  dot_S4000x128_S128x128_S4000x128_1_0_0_1_n_n.rhsIdx_val_of_single rfl i q

theorem dot_r1 (i : S4000x128.Idx) (q : dot_S4000x128_S128x128_S4000x128_1_0_0_1_n_n.contr.Idx) :
    (dot_S4000x128_S128x128_S4000x128_1_0_0_1_n_n.rhsIdx i q (1 : Fin 2)).val = (i (1 : Fin 2)).val := by
  unfold DotDims.rhsIdx
  rw [dif_neg (show ¬(1 : Fin S128x128.rank) ∈ dot_S4000x128_S128x128_S4000x128_1_0_0_1_n_n.rhsBatch by decide),
    dif_pos (show (1 : Fin S128x128.rank) ∈ dot_S4000x128_S128x128_S4000x128_1_0_0_1_n_n.rhsNonContracting by decide)]
  rfl

/-- A block product into the zero splat at `(p, c)`. -/
theorem blockDot {φ₁ φ₂ : FTy} (l : FVec Ideal S4000x128 φ₁) (r : FVec Ideal S128x128 φ₂) (p : Fin 4000) (c : Fin 128) :
    matmul dot_S4000x128_S128x128_S4000x128_1_0_0_1_n_n none l r (constant (F := Ideal) S4000x128 .f32 0x00000000#32) (ix2 p c)
      = ∑ k : Fin 128, l (ix2 p k) * r (ix2 k c) :=
  Cert.Lib.PlainDot.matmul_zero_ix2 dot_S4000x128_S128x128_S4000x128_1_0_0_1_n_n rfl rfl dot_l0 dot_l1 dot_r0 dot_r1 none l r p c

/-- The stored value of the first layer's kernel at `(p, c)`. -/
theorem pay0_ix2 (a : Vec Ideal S4000x128 .f32) (d : Vec Ideal S4000x1 .f32) (x : Vec Ideal S4000x128 .bf16)
    (wl wr : Vec Ideal S128x128 .f32) (b : Vec Ideal S1x128 .f32) (p : Fin 4000) (c : Fin 128) :
    k0_pay1 (F := Ideal) a d x wl wr b (ix2 p c)
      = max (((∑ k : Fin 128, (a (ix2 p k) * d (ix2 p (0 : Fin 1))) * wl (ix2 k c)) + ∑ k : Fin 128, x (ix2 p k) * wr (ix2 k c))
          + b (ix2 (0 : Fin 1) c)) (Ideal.ofBits .f32 0x00000000#32) := by
  unfold k0_pay1
  simp only [truncf_apply, maximumf_apply, addf_apply, broadcast_apply]
  rw [blockDot, blockDot, broadcastTo_1b_ab_apply]
  simp only [truncf_apply, mulf_apply, shapeCast_self, Cert.Lib.Columns.broadcastTo_a1_ab_apply]
  rfl

/-- The second layer's kernel stores the same expression. -/
theorem pay1_ix2 (a : Vec Ideal S4000x128 .f32) (d : Vec Ideal S4000x1 .f32) (x : Vec Ideal S4000x128 .bf16)
    (wl wr : Vec Ideal S128x128 .f32) (b : Vec Ideal S1x128 .f32) (p : Fin 4000) (c : Fin 128) :
    k1_pay1 (F := Ideal) a d x wl wr b (ix2 p c)
      = max (((∑ k : Fin 128, (a (ix2 p k) * d (ix2 p (0 : Fin 1))) * wl (ix2 k c)) + ∑ k : Fin 128, x (ix2 p k) * wr (ix2 k c))
          + b (ix2 (0 : Fin 1) c)) (Ideal.ofBits .f32 0x00000000#32) :=
  pay0_ix2 a d x wl wr b p c

end Cert.Sage.Kernel

end
-- ==== Proof.Region0.lean ====
/-
  The first layer's kernel region as one function of the arrays it is entered with.

  The grid has 25 points; point `t` is given rows `4000 t … 4000 t + 3999` of the neighbour sums, of the reciprocal
  degree column and of the features, the whole of both weight matrices and of the bias row, and writes back rows
  `4000 t … 4000 t + 3999` of the output. Row `p` of that block is the layer expression of row `4000 t + p` of the
  whole arrays, so every write-back is the matching block of ONE array (`dense`), and the 25 blocks cover all
  100000 rows: the output array ends equal to `dense` of the entry arrays.
-/
import proofs.«160222_j6408091206350_2_alg».proof.Proof.Gen.KernelIdeal.Frame
import proofs.«160222_j6408091206350_2_alg».proof.Proof.Payload
import Idealize.ShloMosaic.Lib.Pipeline.Value

set_option maxRecDepth 16384

noncomputable section

namespace Cert.Sage.Kernel.Region0

open Idealize.ShloMosaic Idealize.ShloMosaic.TcCoe Idealize.ShloMosaic.ValueIdx Idealize.SL.Sem
open Idealize.ShloMosaic.Pipeline (Dat)
open Cert.KernelIdeal Cert.KernelIdeal.Gen Cert.Sage.Kernel

variable (V : (c : Dev nD) → (b : Ref sig .tc) → Buf (Elt Ideal) ((c : Thread nD τ).loc b))

theorem hz2 : (![0, 0] : Fin 2 → Nat) = fun _ => 0 := funext fun a => by fin_cases a <;> rfl

/-- The block index of every window at every grid point: the three row-blocked inputs and the output move with
    the point, the weights and the bias stay at block (0, 0). -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! Each input block, read at an entry, is the whole array read at the entry's place in it: the row moved down by
    4000 rows per grid point for the three row-blocked inputs, the same place for the weights and the bias. -/

theorem read0_0 (c : Dev nD) (t : Fin cfg0.N) (x : S4000x128.Idx) (K : S100000x128.Idx)
    (h0 : (K 0).val = t.val * 4000 + (x 0).val) (h1 : (K 1).val = (x 1).val) :
    (iblk0 V c 0 t : Vec Ideal S4000x128 .f32) x = (V c main_v27 : S100000x128.Idx → EReal) K := by
  obtain ⟨a0, a1, b0, b1, c0, c1, d0, d1, e0, e1, f0, f1, g0, g1⟩ := idx0 t
  unfold iblk0
  rw [View.read_apply]
  show V c main_v27 _ = V c main_v27 _
  refine congrArg _ (funext fun a => Fin.ext ?_)
  match a with
  | ⟨0, _⟩ => show win0_0.index t (0 : Fin 2) * 4000 + 1 * (x 0).val = (K 0).val; rw [h0, a0]; omega
  | ⟨1, _⟩ => show win0_0.index t (1 : Fin 2) * 128 + 1 * (x 1).val = (K 1).val; rw [h1, a1]; omega

theorem read0_1 (c : Dev nD) (t : Fin cfg0.N) (x : S4000x1.Idx) (K : S100000x1.Idx)
    (h0 : (K 0).val = t.val * 4000 + (x 0).val) (h1 : (K 1).val = (x 1).val) :
    (iblk0 V c 1 t : Vec Ideal S4000x1 .f32) x = (V c main_v13 : S100000x1.Idx → EReal) K := by
  obtain ⟨a0, a1, b0, b1, c0, c1, d0, d1, e0, e1, f0, f1, g0, g1⟩ := idx0 t
  unfold iblk0
  rw [View.read_apply]
  show V c main_v13 _ = V c main_v13 _
  refine congrArg _ (funext fun a => Fin.ext ?_)
  match a with
  | ⟨0, _⟩ => show win0_1.index t (0 : Fin 2) * 4000 + 1 * (x 0).val = (K 0).val; rw [h0, b0]; omega
  | ⟨1, _⟩ => show win0_1.index t (1 : Fin 2) * 1 + 1 * (x 1).val = (K 1).val; rw [h1, b1]; omega

theorem read0_2 (c : Dev nD) (t : Fin cfg0.N) (x : S4000x128.Idx) (K : S100000x128.Idx)
    (h0 : (K 0).val = t.val * 4000 + (x 0).val) (h1 : (K 1).val = (x 1).val) :
    (iblk0 V c 2 t : Vec Ideal S4000x128 .bf16) x = (V c main_v16 : S100000x128.Idx → EReal) K := by
  obtain ⟨a0, a1, b0, b1, c0, c1, d0, d1, e0, e1, f0, f1, g0, g1⟩ := idx0 t
  unfold iblk0
  rw [View.read_apply]
  show V c main_v16 _ = V c main_v16 _
  refine congrArg _ (funext fun a => Fin.ext ?_)
  match a with
  | ⟨0, _⟩ => show win0_2.index t (0 : Fin 2) * 4000 + 1 * (x 0).val = (K 0).val; rw [h0, c0]; omega
  | ⟨1, _⟩ => show win0_2.index t (1 : Fin 2) * 128 + 1 * (x 1).val = (K 1).val; rw [h1, c1]; omega

theorem read0_3 (c : Dev nD) (t : Fin cfg0.N) (x : S128x128.Idx) (K : S128x128.Idx)
    (h0 : (K 0).val = (x 0).val) (h1 : (K 1).val = (x 1).val) :
    (iblk0 V c 3 t : Vec Ideal S128x128 .f32) x = (V c main_v29 : S128x128.Idx → EReal) K := by
  obtain ⟨a0, a1, b0, b1, c0, c1, d0, d1, e0, e1, f0, f1, g0, g1⟩ := idx0 t
  unfold iblk0
  rw [View.read_apply]
  show V c main_v29 _ = V c main_v29 _
  refine congrArg _ (funext fun a => Fin.ext ?_)
  match a with
  | ⟨0, _⟩ => show win0_3.index t (0 : Fin 2) * 128 + 1 * (x 0).val = (K 0).val; rw [h0, d0]; omega
  | ⟨1, _⟩ => show win0_3.index t (1 : Fin 2) * 128 + 1 * (x 1).val = (K 1).val; rw [h1, d1]; omega

theorem read0_4 (c : Dev nD) (t : Fin cfg0.N) (x : S128x128.Idx) (K : S128x128.Idx)
    (h0 : (K 0).val = (x 0).val) (h1 : (K 1).val = (x 1).val) :
    (iblk0 V c 4 t : Vec Ideal S128x128 .f32) x = (V c main_v31 : S128x128.Idx → EReal) K := by
  obtain ⟨a0, a1, b0, b1, c0, c1, d0, d1, e0, e1, f0, f1, g0, g1⟩ := idx0 t
  unfold iblk0
  rw [View.read_apply]
  show V c main_v31 _ = V c main_v31 _
  refine congrArg _ (funext fun a => Fin.ext ?_)
  match a with
  | ⟨0, _⟩ => show win0_4.index t (0 : Fin 2) * 128 + 1 * (x 0).val = (K 0).val; rw [h0, e0]; omega
  | ⟨1, _⟩ => show win0_4.index t (1 : Fin 2) * 128 + 1 * (x 1).val = (K 1).val; rw [h1, e1]; omega

theorem read0_5 (c : Dev nD) (t : Fin cfg0.N) (x : S1x128.Idx) (K : S1x128.Idx)
    (h0 : (K 0).val = (x 0).val) (h1 : (K 1).val = (x 1).val) :
    (iblk0 V c 5 t : Vec Ideal S1x128 .f32) x = (V c main_v34 : S1x128.Idx → EReal) K := by
  obtain ⟨a0, a1, b0, b1, c0, c1, d0, d1, e0, e1, f0, f1, g0, g1⟩ := idx0 t
  unfold iblk0
  rw [View.read_apply]
  show V c main_v34 _ = V c main_v34 _
  refine congrArg _ (funext fun a => Fin.ext ?_)
  match a with
  | ⟨0, _⟩ => show win0_5.index t (0 : Fin 2) * 1 + 1 * (x 0).val = (K 0).val; rw [h0, f0]; omega
  | ⟨1, _⟩ => show win0_5.index t (1 : Fin 2) * 128 + 1 * (x 1).val = (K 1).val; rw [h1, f1]; omega

/-- WHAT POINT `t` WRITES BACK is block `t` of `dense` of the arrays as the region finds them. -/
theorem flushed_eq (c : Dev nD) (t : Fin cfg0.N) :
    (dat0 V c).flushed 6 t = ((cfg0.win 6).blk t).view.read (Elt Ideal)
      (dense (V c main_v27) (V c main_v13) (V c main_v16) (V c main_v29) (V c main_v31) (V c main_v34)) := by
  show (cfg0.win 6).cut (grid0.coords t) ((dat0 V c).after 6 t) = _
  rw [after0_6]
  unfold out0_6
  rw [View.canon_unit_zero hz2]
  simp only [View.ld_unit_zero (S := S4000x128) hz2, View.ld_unit_zero (S := S4000x1) hz2, View.ld_unit_zero (S := S128x128) hz2,
    View.ld_unit_zero (S := S1x128) hz2]
  obtain ⟨a0, a1, b0, b1, c0, c1, d0, d1, e0, e1, f0, f1, g0, g1⟩ := idx0 t
  funext j
  obtain ⟨p, q, rfl⟩ : ∃ (p : Fin 4000) (q : Fin 128), j = ix2 p q := ⟨j 0, j 1, eq_ix2 j⟩
  show k0_pay1 (iblk0 V c 0 t) (iblk0 V c 1 t) (iblk0 V c 2 t) (iblk0 V c 3 t) (iblk0 V c 4 t) (iblk0 V c 5 t) (ix2 p q)
    = dense (V c main_v27) (V c main_v13) (V c main_v16) (V c main_v29) (V c main_v31) (V c main_v34)
        (((cfg0.win 6).blk t).view.emb (ix2 p q))
  refine (pay0_ix2 _ _ _ _ _ _ p q).trans ?_
  generalize hE : ((cfg0.win 6).blk t).view.emb (ix2 p q) = E
  have hE0 : (E 0).val = t.val * 4000 + p.val := by
    rw [← hE]; show win0_6.index t (0 : Fin 2) * 4000 + 1 * p.val = _; rw [g0]; omega
  have hE1 : (E 1).val = q.val := by
    rw [← hE]; show win0_6.index t (1 : Fin 2) * 128 + 1 * q.val = _; rw [g1]; omega
  rw [dense_apply]
  unfold denseAt
  have r0 : ∀ k : Fin 128, (iblk0 V c 0 t : Vec Ideal S4000x128 .f32) (ix2 p k) = (V c main_v27 : S100000x128.Idx → EReal) (ix2 (E 0) k) :=
    fun k => read0_0 V c t (ix2 p k) (ix2 (E 0) k) hE0 rfl
  have r1 : (iblk0 V c 1 t : Vec Ideal S4000x1 .f32) (ix2 p (0 : Fin 1)) = (V c main_v13 : S100000x1.Idx → EReal) (ix2 (E 0) (0 : Fin 1)) :=
    read0_1 V c t (ix2 p (0 : Fin 1)) (ix2 (E 0) (0 : Fin 1)) hE0 rfl
  have r2 : ∀ k : Fin 128, (iblk0 V c 2 t : Vec Ideal S4000x128 .bf16) (ix2 p k) = (V c main_v16 : S100000x128.Idx → EReal) (ix2 (E 0) k) :=
    fun k => read0_2 V c t (ix2 p k) (ix2 (E 0) k) hE0 rfl
  have r3 : ∀ k : Fin 128, (iblk0 V c 3 t : Vec Ideal S128x128 .f32) (ix2 k q) = (V c main_v29 : S128x128.Idx → EReal) (ix2 k (E 1)) :=
    fun k => read0_3 V c t (ix2 k q) (ix2 k (E 1)) rfl hE1
  have r4 : ∀ k : Fin 128, (iblk0 V c 4 t : Vec Ideal S128x128 .f32) (ix2 k q) = (V c main_v31 : S128x128.Idx → EReal) (ix2 k (E 1)) :=
    fun k => read0_4 V c t (ix2 k q) (ix2 k (E 1)) rfl hE1
  have r5 : (iblk0 V c 5 t : Vec Ideal S1x128 .f32) (ix2 (0 : Fin 1) q) = (V c main_v34 : S1x128.Idx → EReal) (ix2 (0 : Fin 1) (E 1)) :=
    read0_5 V c t (ix2 (0 : Fin 1) q) (ix2 (0 : Fin 1) (E 1)) rfl hE1
  simp only [r0, r1, r2, r3, r4, r5]

/-- An index of the output array is in point `t`'s block iff each coordinate is in the block's range on its axis. -/
theorem mem_blk (t : Fin cfg0.N) (i : S100000x128.Idx) :
    i ∈ ((cfg0.win 6).blk t).view.set ↔ ∀ a : Fin 2, win0_6.index t a * S4000x128.size a ≤ (i a).val
      ∧ (i a).val < win0_6.index t a * S4000x128.size a + S4000x128.size a := by
  show i ∈ ((View.whole main_v35).slice (win0_6.rect t)).set ↔ _
  rw [View.set_slice_whole, Rect.mem_set_unit]
  exact Iff.rfl

/-- Row `r` of the output lies in the block of point `r / 4000`. -/
theorem covered (i : S100000x128.Idx) :
    ∃ t : Fin cfg0.N, (cfg0.win 6).flush t = true ∧ i ∈ ((cfg0.win 6).blk t).view.set := by
  have hN : cfg0.N = 25 := N_0
  have hi0 : (i 0).val < 100000 := (i 0).isLt
  have hi1 : (i 1).val < 128 := (i 1).isLt
  have ht : (i 0).val / 4000 < cfg0.N := by rw [hN]; omega
  obtain ⟨a0, a1, b0, b1, c0, c1, d0, d1, e0, e1, f0, f1, g0, g1⟩ := idx0 ⟨(i 0).val / 4000, ht⟩
  refine ⟨⟨(i 0).val / 4000, ht⟩, flush0_6 _, ?_⟩
  rw [mem_blk]
  intro a
  match a with
  | ⟨0, _⟩ =>
    show win0_6.index ⟨(i 0).val / 4000, ht⟩ (0 : Fin 2) * 4000 ≤ (i 0).val
      ∧ (i 0).val < win0_6.index ⟨(i 0).val / 4000, ht⟩ (0 : Fin 2) * 4000 + 4000
    rw [g0]; show (i 0).val / 4000 * 4000 ≤ (i 0).val ∧ (i 0).val < (i 0).val / 4000 * 4000 + 4000; omega
  | ⟨1, _⟩ =>
    show win0_6.index ⟨(i 0).val / 4000, ht⟩ (1 : Fin 2) * 128 ≤ (i 1).val
      ∧ (i 1).val < win0_6.index ⟨(i 0).val / 4000, ht⟩ (1 : Fin 2) * 128 + 128
    rw [g1]; omega

/-- THE OUTPUT ARRAY after the region: `dense` of the arrays the region was entered with. -/
theorem final (c : Dev nD) : (dat0 V c).arrAt 6 cfg0.N
    = dense (V c main_v27) (V c main_v13) (V c main_v16) (V c main_v29) (V c main_v31) (V c main_v34) :=
  (dat0 V c).arrAt_eq_of_cover 6 _ (fun t _ => flushed_eq V c t) covered

end Cert.Sage.Kernel.Region0

end
-- ==== Proof.Region1.lean ====
/-
  The second layer's kernel region as one function of the arrays it is entered with.

  The grid has 25 points; point `t` is given rows `4000 t … 4000 t + 3999` of the neighbour sums, of the reciprocal
  degree column and of the features, the whole of both weight matrices and of the bias row, and writes back rows
  `4000 t … 4000 t + 3999` of the output. Row `p` of that block is the layer expression of row `4000 t + p` of the
  whole arrays, so every write-back is the matching block of ONE array (`dense`), and the 25 blocks cover all
  100000 rows: the output array ends equal to `dense` of the entry arrays.
-/
import proofs.«160222_j6408091206350_2_alg».proof.Proof.Gen.KernelIdeal.Frame
import proofs.«160222_j6408091206350_2_alg».proof.Proof.Payload
import Idealize.ShloMosaic.Lib.Pipeline.Value

set_option maxRecDepth 16384

noncomputable section

namespace Cert.Sage.Kernel.Region1

open Idealize.ShloMosaic Idealize.ShloMosaic.TcCoe Idealize.ShloMosaic.ValueIdx Idealize.SL.Sem
open Idealize.ShloMosaic.Pipeline (Dat)
open Cert.KernelIdeal Cert.KernelIdeal.Gen Cert.Sage.Kernel

variable (V : (c : Dev nD) → (b : Ref sig .tc) → Buf (Elt Ideal) ((c : Thread nD τ).loc b))

theorem hz2 : (![0, 0] : Fin 2 → Nat) = fun _ => 0 := funext fun a => by fin_cases a <;> rfl

/-- The block index of every window at every grid point: the three row-blocked inputs and the output move with
    the point, the weights and the bias stay at block (0, 0). -/
theorem idx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-! Each input block, read at an entry, is the whole array read at the entry's place in it: the row moved down by
    4000 rows per grid point for the three row-blocked inputs, the same place for the weights and the bias. -/

theorem read1_0 (c : Dev nD) (t : Fin cfg1.N) (x : S4000x128.Idx) (K : S100000x128.Idx)
    (h0 : (K 0).val = t.val * 4000 + (x 0).val) (h1 : (K 1).val = (x 1).val) :
    (iblk1 V c 0 t : Vec Ideal S4000x128 .f32) x = (V c main_v46 : S100000x128.Idx → EReal) K := by
  obtain ⟨a0, a1, b0, b1, c0, c1, d0, d1, e0, e1, f0, f1, g0, g1⟩ := idx1 t
  unfold iblk1
  rw [View.read_apply]
  show V c main_v46 _ = V c main_v46 _
  refine congrArg _ (funext fun a => Fin.ext ?_)
  match a with
  | ⟨0, _⟩ => show win1_0.index t (0 : Fin 2) * 4000 + 1 * (x 0).val = (K 0).val; rw [h0, a0]; omega
  | ⟨1, _⟩ => show win1_0.index t (1 : Fin 2) * 128 + 1 * (x 1).val = (K 1).val; rw [h1, a1]; omega

theorem read1_1 (c : Dev nD) (t : Fin cfg1.N) (x : S4000x1.Idx) (K : S100000x1.Idx)
    (h0 : (K 0).val = t.val * 4000 + (x 0).val) (h1 : (K 1).val = (x 1).val) :
    (iblk1 V c 1 t : Vec Ideal S4000x1 .f32) x = (V c main_v13 : S100000x1.Idx → EReal) K := by
  obtain ⟨a0, a1, b0, b1, c0, c1, d0, d1, e0, e1, f0, f1, g0, g1⟩ := idx1 t
  unfold iblk1
  rw [View.read_apply]
  show V c main_v13 _ = V c main_v13 _
  refine congrArg _ (funext fun a => Fin.ext ?_)
  match a with
  | ⟨0, _⟩ => show win1_1.index t (0 : Fin 2) * 4000 + 1 * (x 0).val = (K 0).val; rw [h0, b0]; omega
  | ⟨1, _⟩ => show win1_1.index t (1 : Fin 2) * 1 + 1 * (x 1).val = (K 1).val; rw [h1, b1]; omega

theorem read1_2 (c : Dev nD) (t : Fin cfg1.N) (x : S4000x128.Idx) (K : S100000x128.Idx)
    (h0 : (K 0).val = t.val * 4000 + (x 0).val) (h1 : (K 1).val = (x 1).val) :
    (iblk1 V c 2 t : Vec Ideal S4000x128 .bf16) x = (V c main_v35 : S100000x128.Idx → EReal) K := by
  obtain ⟨a0, a1, b0, b1, c0, c1, d0, d1, e0, e1, f0, f1, g0, g1⟩ := idx1 t
  unfold iblk1
  rw [View.read_apply]
  show V c main_v35 _ = V c main_v35 _
  refine congrArg _ (funext fun a => Fin.ext ?_)
  match a with
  | ⟨0, _⟩ => show win1_2.index t (0 : Fin 2) * 4000 + 1 * (x 0).val = (K 0).val; rw [h0, c0]; omega
  | ⟨1, _⟩ => show win1_2.index t (1 : Fin 2) * 128 + 1 * (x 1).val = (K 1).val; rw [h1, c1]; omega

theorem read1_3 (c : Dev nD) (t : Fin cfg1.N) (x : S128x128.Idx) (K : S128x128.Idx)
    (h0 : (K 0).val = (x 0).val) (h1 : (K 1).val = (x 1).val) :
    (iblk1 V c 3 t : Vec Ideal S128x128 .f32) x = (V c main_v48 : S128x128.Idx → EReal) K := by
  obtain ⟨a0, a1, b0, b1, c0, c1, d0, d1, e0, e1, f0, f1, g0, g1⟩ := idx1 t
  unfold iblk1
  rw [View.read_apply]
  show V c main_v48 _ = V c main_v48 _
  refine congrArg _ (funext fun a => Fin.ext ?_)
  match a with
  | ⟨0, _⟩ => show win1_3.index t (0 : Fin 2) * 128 + 1 * (x 0).val = (K 0).val; rw [h0, d0]; omega
  | ⟨1, _⟩ => show win1_3.index t (1 : Fin 2) * 128 + 1 * (x 1).val = (K 1).val; rw [h1, d1]; omega

theorem read1_4 (c : Dev nD) (t : Fin cfg1.N) (x : S128x128.Idx) (K : S128x128.Idx)
    (h0 : (K 0).val = (x 0).val) (h1 : (K 1).val = (x 1).val) :
    (iblk1 V c 4 t : Vec Ideal S128x128 .f32) x = (V c main_v50 : S128x128.Idx → EReal) K := by
  obtain ⟨a0, a1, b0, b1, c0, c1, d0, d1, e0, e1, f0, f1, g0, g1⟩ := idx1 t
  unfold iblk1
  rw [View.read_apply]
  show V c main_v50 _ = V c main_v50 _
  refine congrArg _ (funext fun a => Fin.ext ?_)
  match a with
  | ⟨0, _⟩ => show win1_4.index t (0 : Fin 2) * 128 + 1 * (x 0).val = (K 0).val; rw [h0, e0]; omega
  | ⟨1, _⟩ => show win1_4.index t (1 : Fin 2) * 128 + 1 * (x 1).val = (K 1).val; rw [h1, e1]; omega

theorem read1_5 (c : Dev nD) (t : Fin cfg1.N) (x : S1x128.Idx) (K : S1x128.Idx)
    (h0 : (K 0).val = (x 0).val) (h1 : (K 1).val = (x 1).val) :
    (iblk1 V c 5 t : Vec Ideal S1x128 .f32) x = (V c main_v53 : S1x128.Idx → EReal) K := by
  obtain ⟨a0, a1, b0, b1, c0, c1, d0, d1, e0, e1, f0, f1, g0, g1⟩ := idx1 t
  unfold iblk1
  rw [View.read_apply]
  show V c main_v53 _ = V c main_v53 _
  refine congrArg _ (funext fun a => Fin.ext ?_)
  match a with
  | ⟨0, _⟩ => show win1_5.index t (0 : Fin 2) * 1 + 1 * (x 0).val = (K 0).val; rw [h0, f0]; omega
  | ⟨1, _⟩ => show win1_5.index t (1 : Fin 2) * 128 + 1 * (x 1).val = (K 1).val; rw [h1, f1]; omega

/-- WHAT POINT `t` WRITES BACK is block `t` of `dense` of the arrays as the region finds them. -/
theorem flushed_eq (c : Dev nD) (t : Fin cfg1.N) :
    (dat1 V c).flushed 6 t = ((cfg1.win 6).blk t).view.read (Elt Ideal)
      (dense (V c main_v46) (V c main_v13) (V c main_v35) (V c main_v48) (V c main_v50) (V c main_v53)) := by
  show (cfg1.win 6).cut (grid1.coords t) ((dat1 V c).after 6 t) = _
  rw [after1_6]
  unfold out1_6
  rw [View.canon_unit_zero hz2]
  simp only [View.ld_unit_zero (S := S4000x128) hz2, View.ld_unit_zero (S := S4000x1) hz2, View.ld_unit_zero (S := S128x128) hz2,
    View.ld_unit_zero (S := S1x128) hz2]
  obtain ⟨a0, a1, b0, b1, c0, c1, d0, d1, e0, e1, f0, f1, g0, g1⟩ := idx1 t
  funext j
  obtain ⟨p, q, rfl⟩ : ∃ (p : Fin 4000) (q : Fin 128), j = ix2 p q := ⟨j 0, j 1, eq_ix2 j⟩
  show k1_pay1 (iblk1 V c 0 t) (iblk1 V c 1 t) (iblk1 V c 2 t) (iblk1 V c 3 t) (iblk1 V c 4 t) (iblk1 V c 5 t) (ix2 p q)
    = dense (V c main_v46) (V c main_v13) (V c main_v35) (V c main_v48) (V c main_v50) (V c main_v53)
        (((cfg1.win 6).blk t).view.emb (ix2 p q))
  refine (pay1_ix2 _ _ _ _ _ _ p q).trans ?_
  generalize hE : ((cfg1.win 6).blk t).view.emb (ix2 p q) = E
  have hE0 : (E 0).val = t.val * 4000 + p.val := by
    rw [← hE]; show win1_6.index t (0 : Fin 2) * 4000 + 1 * p.val = _; rw [g0]; omega
  have hE1 : (E 1).val = q.val := by
    rw [← hE]; show win1_6.index t (1 : Fin 2) * 128 + 1 * q.val = _; rw [g1]; omega
  rw [dense_apply]
  unfold denseAt
  have r0 : ∀ k : Fin 128, (iblk1 V c 0 t : Vec Ideal S4000x128 .f32) (ix2 p k) = (V c main_v46 : S100000x128.Idx → EReal) (ix2 (E 0) k) :=
    fun k => read1_0 V c t (ix2 p k) (ix2 (E 0) k) hE0 rfl
  have r1 : (iblk1 V c 1 t : Vec Ideal S4000x1 .f32) (ix2 p (0 : Fin 1)) = (V c main_v13 : S100000x1.Idx → EReal) (ix2 (E 0) (0 : Fin 1)) :=
    read1_1 V c t (ix2 p (0 : Fin 1)) (ix2 (E 0) (0 : Fin 1)) hE0 rfl
  have r2 : ∀ k : Fin 128, (iblk1 V c 2 t : Vec Ideal S4000x128 .bf16) (ix2 p k) = (V c main_v35 : S100000x128.Idx → EReal) (ix2 (E 0) k) :=
    fun k => read1_2 V c t (ix2 p k) (ix2 (E 0) k) hE0 rfl
  have r3 : ∀ k : Fin 128, (iblk1 V c 3 t : Vec Ideal S128x128 .f32) (ix2 k q) = (V c main_v48 : S128x128.Idx → EReal) (ix2 k (E 1)) :=
    fun k => read1_3 V c t (ix2 k q) (ix2 k (E 1)) rfl hE1
  have r4 : ∀ k : Fin 128, (iblk1 V c 4 t : Vec Ideal S128x128 .f32) (ix2 k q) = (V c main_v50 : S128x128.Idx → EReal) (ix2 k (E 1)) :=
    fun k => read1_4 V c t (ix2 k q) (ix2 k (E 1)) rfl hE1
  have r5 : (iblk1 V c 5 t : Vec Ideal S1x128 .f32) (ix2 (0 : Fin 1) q) = (V c main_v53 : S1x128.Idx → EReal) (ix2 (0 : Fin 1) (E 1)) :=
    read1_5 V c t (ix2 (0 : Fin 1) q) (ix2 (0 : Fin 1) (E 1)) rfl hE1
  simp only [r0, r1, r2, r3, r4, r5]

/-- An index of the output array is in point `t`'s block iff each coordinate is in the block's range on its axis. -/
theorem mem_blk (t : Fin cfg1.N) (i : S100000x128.Idx) :
    i ∈ ((cfg1.win 6).blk t).view.set ↔ ∀ a : Fin 2, win1_6.index t a * S4000x128.size a ≤ (i a).val
      ∧ (i a).val < win1_6.index t a * S4000x128.size a + S4000x128.size a := by
  show i ∈ ((View.whole main_v54).slice (win1_6.rect t)).set ↔ _
  rw [View.set_slice_whole, Rect.mem_set_unit]
  exact Iff.rfl

/-- Row `r` of the output lies in the block of point `r / 4000`. -/
theorem covered (i : S100000x128.Idx) :
    ∃ t : Fin cfg1.N, (cfg1.win 6).flush t = true ∧ i ∈ ((cfg1.win 6).blk t).view.set := by
  have hN : cfg1.N = 25 := N_1
  have hi0 : (i 0).val < 100000 := (i 0).isLt
  have hi1 : (i 1).val < 128 := (i 1).isLt
  have ht : (i 0).val / 4000 < cfg1.N := by rw [hN]; omega
  obtain ⟨a0, a1, b0, b1, c0, c1, d0, d1, e0, e1, f0, f1, g0, g1⟩ := idx1 ⟨(i 0).val / 4000, ht⟩
  refine ⟨⟨(i 0).val / 4000, ht⟩, flush1_6 _, ?_⟩
  rw [mem_blk]
  intro a
  match a with
  | ⟨0, _⟩ =>
    show win1_6.index ⟨(i 0).val / 4000, ht⟩ (0 : Fin 2) * 4000 ≤ (i 0).val
      ∧ (i 0).val < win1_6.index ⟨(i 0).val / 4000, ht⟩ (0 : Fin 2) * 4000 + 4000
    rw [g0]; show (i 0).val / 4000 * 4000 ≤ (i 0).val ∧ (i 0).val < (i 0).val / 4000 * 4000 + 4000; omega
  | ⟨1, _⟩ =>
    show win1_6.index ⟨(i 0).val / 4000, ht⟩ (1 : Fin 2) * 128 ≤ (i 1).val
      ∧ (i 1).val < win1_6.index ⟨(i 0).val / 4000, ht⟩ (1 : Fin 2) * 128 + 128
    rw [g1]; omega

/-- THE OUTPUT ARRAY after the region: `dense` of the arrays the region was entered with. -/
theorem final (c : Dev nD) : (dat1 V c).arrAt 6 cfg1.N
    = dense (V c main_v46) (V c main_v13) (V c main_v35) (V c main_v48) (V c main_v50) (V c main_v53) :=
  (dat1 V c).arrAt_eq_of_cover 6 _ (fun t _ => flushed_eq V c t) covered

end Cert.Sage.Kernel.Region1

end
-- ==== Proof.Spec.lean ====
/-
  One layer of the mean-aggregating graph convolution, as a function of whole arrays on the extended reals.

  For node features `X` (100000 nodes, 128 channels), the neighbour sums `A` (same shape), the reciprocal
  in-degrees `inv` (one per node), the two weight stacks `Wl`, `Wr` (2 layers of 128 x 128, stored output-channel
  first) and the bias stack `B`, layer `l` sends node `p` and output channel `c` to

      max ( (∑ k, (A (p, k) · inv p) · Wl (l, c, k)) + B (l, c) + ∑ k, X (p, k) · Wr (l, c, k) ) 0 .

  The zero of the rectifier is kept as the denotation of the all-zero word, the form both programs print it in.
-/
import Idealize.ShloMosaic.PureOps.Ideal
import Idealize.ShloMosaic.Lib.ValueIdx

noncomputable section

namespace Cert.Sage

open Idealize.ShloMosaic Idealize.ShloMosaic.ValueIdx

/-- The layer at node `p` and output channel `c`. -/
def layerAt (A : (⟨2, ![100000, 128]⟩ : Shape).Idx → EReal) (inv : (⟨1, ![100000]⟩ : Shape).Idx → EReal)
    (X : (⟨2, ![100000, 128]⟩ : Shape).Idx → EReal) (Wl Wr : (⟨3, ![2, 128, 128]⟩ : Shape).Idx → EReal)
    (B : (⟨2, ![2, 128]⟩ : Shape).Idx → EReal) (l : Fin 2) (p : Fin 100000) (c : Fin 128) : EReal :=
  max (((∑ k : Fin 128, (A (ix2 p k) * inv (ix1 p)) * Wl (ix3 l c k)) + B (ix2 l c))
      + ∑ k : Fin 128, X (ix2 p k) * Wr (ix3 l c k)) (Ideal.ofBits .f32 0x00000000#32)

/-- The layer as an array: entry `i` is `layerAt` at the two coordinates of `i`. -/
def layer (A : (⟨2, ![100000, 128]⟩ : Shape).Idx → EReal) (inv : (⟨1, ![100000]⟩ : Shape).Idx → EReal)
    (X : (⟨2, ![100000, 128]⟩ : Shape).Idx → EReal) (Wl Wr : (⟨3, ![2, 128, 128]⟩ : Shape).Idx → EReal)
    (B : (⟨2, ![2, 128]⟩ : Shape).Idx → EReal) (l : Fin 2) : (⟨2, ![100000, 128]⟩ : Shape).Idx → EReal :=
  fun i => layerAt A inv X Wl Wr B l (i 0) (i 1)

theorem layer_ix2 (A : (⟨2, ![100000, 128]⟩ : Shape).Idx → EReal) (inv : (⟨1, ![100000]⟩ : Shape).Idx → EReal)
    (X : (⟨2, ![100000, 128]⟩ : Shape).Idx → EReal) (Wl Wr : (⟨3, ![2, 128, 128]⟩ : Shape).Idx → EReal)
    (B : (⟨2, ![2, 128]⟩ : Shape).Idx → EReal) (l : Fin 2) (p : Fin 100000) (c : Fin 128) :
    layer A inv X Wl Wr B l (ix2 p c) = layerAt A inv X Wl Wr B l p c := rfl

end Cert.Sage

end
-- ==== Proof.DenseLayer.lean ====
/-
  The kernel's form of the layer and the reference's form are one function.

  The kernel is given the reciprocal degrees as a column, each weight matrix input channel first and the bias as a
  row, and adds the bias last; the reference reads the degree vector, the weight stacks output channel first and
  the bias stack, and adds the bias between the two products. Entry by entry the two expressions differ only in
  where the same numbers are read from and in the order of two additions, and addition of extended reals is
  commutative and associative.
-/
import proofs.«160222_j6408091206350_2_alg».proof.Proof.Payload
import proofs.«160222_j6408091206350_2_alg».proof.Proof.Spec

noncomputable section

namespace Cert.Sage.Kernel

open Idealize.ShloMosaic Idealize.ShloMosaic.ValueIdx Cert.KernelIdeal

/-- `dense` on arrays that hold the reference's numbers in the kernel's layout is the reference's layer `l`. -/
theorem dense_eq_layer (A : S100000x128.Idx → EReal) (D : S100000x1.Idx → EReal) (X : S100000x128.Idx → EReal)
    (wl wr : S128x128.Idx → EReal) (b : S1x128.Idx → EReal)
    (inv : (⟨1, ![100000]⟩ : Shape).Idx → EReal) (Wl Wr : (⟨3, ![2, 128, 128]⟩ : Shape).Idx → EReal)
    (B : (⟨2, ![2, 128]⟩ : Shape).Idx → EReal) (l : Fin 2)
    (hD : ∀ r : Fin 100000, D (ix2 r (0 : Fin 1)) = inv (ix1 r))
    (hwl : ∀ k c : Fin 128, wl (ix2 k c) = Wl (ix3 l c k))
    (hwr : ∀ k c : Fin 128, wr (ix2 k c) = Wr (ix3 l c k))
    (hb : ∀ c : Fin 128, b (ix2 (0 : Fin 1) c) = B (ix2 l c)) :
    dense A D X wl wr b = Cert.Sage.layer A inv X Wl Wr B l := by
  funext i
  obtain ⟨r, c, rfl⟩ : ∃ (r : Fin 100000) (c : Fin 128), i = ix2 r c := ⟨i 0, i 1, eq_ix2 i⟩
  rw [Cert.Sage.layer_ix2]
  show denseAt A D X wl wr b r c = _
  unfold denseAt Cert.Sage.layerAt
  simp only [hD, hwl, hwr, hb]
  rw [add_right_comm]

end Cert.Sage.Kernel

end
-- ==== Proof.LibStackReads.lean ====
/-
  Three small layout compositions read at coordinates.

  * One matrix of a stack `[m, a, b]`, taken after every matrix of the stack has been transposed: the stack is
    transposed with the permutation `[0, 2, 1]`, matrix `o` is cut out as a `[1, b, a]` slab, and the slab is cast to
    `[b, a]`. At `(k, c)` it reads the stack at `(o, c, k)`.
  * One row of a matrix `[m, n]` kept as a row: the row `o` is cut out as `[1, n]`, cast to the vector `[n]` and cast
    back to `[1, n]`. At `(u, c)` it reads the matrix at `(o, c)`.
  * A vector `[n]` laid out as the column `[n, 1]` by a broadcast along a new last axis. At `(r, u)` it reads the vector at `r`.
-/
import Idealize.ShloMosaic.Lib.Pipeline.Value
import Idealize.ShloMosaic.Lib.ValueIdx
import Idealize.ShloMosaic.Lib.ValueLayout

namespace Cert.Lib.StackReads

open Idealize.ShloMosaic Idealize.ShloMosaic.ValueIdx

variable {α : Type}

/-- Matrix `l` of the transposed stack, as a `[b, a]` matrix, at `(k, c)`: the stack at `(l, c, k)`. -/
theorem transposed_matrix_apply {m a b : ℕ} (o : ℕ) (w : (⟨3, ![m, a, b]⟩ : Shape).Idx → α)
    (hT : (⟨3, ![m, a, b]⟩ : Shape).Transposes [0, 2, 1] ⟨3, ![m, b, a]⟩)
    (hS : (⟨3, ![m, b, a]⟩ : Shape).Slices ![o, 0, 0] ⟨3, ![1, b, a]⟩)
    (hC : (⟨3, ![1, b, a]⟩ : Shape).ShapeCasts ⟨2, ![b, a]⟩)
    (l : Fin m) (hl : l.val = o) (k : Fin b) (c : Fin a) :
    shapeCast ⟨2, ![b, a]⟩ (extractStridedSlice ⟨3, ![1, b, a]⟩ ![o, 0, 0] (transpose ⟨3, ![m, b, a]⟩ [0, 2, 1] w hT) hS) hC (ix2 k c)
      = w (ix3 l c k) := by
  rw [shapeCast_1ab_ab_apply]
  refine (extractStridedSlice_apply _ _ hS (ix3 (0 : Fin 1) k c) (ix3 l k c) fun ax => ?_).trans
    (transpose_ix3_021_apply w hT l k c)
  match ax with
  | ⟨0, _⟩ => show l.val = o + 0; omega
  | ⟨1, _⟩ => exact (Nat.zero_add _).symm
  | ⟨2, _⟩ => exact (Nat.zero_add _).symm

/-- Row `l` of a matrix, kept as a `[1, n]` row through a vector, at `(u, c)`: the matrix at `(l, c)`. -/
theorem kept_row_apply {m n : ℕ} (o : ℕ) (x : (⟨2, ![m, n]⟩ : Shape).Idx → α)
    (hS : (⟨2, ![m, n]⟩ : Shape).Slices ![o, 0] ⟨2, ![1, n]⟩)
    (hC1 : (⟨2, ![1, n]⟩ : Shape).ShapeCasts ⟨1, ![n]⟩) (hC2 : (⟨1, ![n]⟩ : Shape).ShapeCasts ⟨2, ![1, n]⟩)
    (l : Fin m) (hl : l.val = o) (u : Fin 1) (c : Fin n) :
    shapeCast ⟨2, ![1, n]⟩ (shapeCast ⟨1, ![n]⟩ (extractStridedSlice ⟨2, ![1, n]⟩ ![o, 0] x hS) hC1) hC2 (ix2 u c)
      = x (ix2 l c) := by
  rw [shapeCast_a_1a_apply, shapeCast_1a_a_apply]
  exact slice2_axis0_apply o x hS (0 : Fin 1) c l (by show l.val = o + 0; omega)

/-- A vector broadcast to a column, at `(r, u)`: the vector at `r`. -/
theorem column_apply {n : ℕ} (hn : n ≠ 1) (v : (⟨1, ![n]⟩ : Shape).Idx → α)
    (h : (⟨1, ![n]⟩ : Shape).BroadcastsInDim ⟨2, ![n, 1]⟩ ![0]) (r : Fin n) (u : Fin 1) :
    broadcastInDim ⟨2, ![n, 1]⟩ ![0] h v (ix2 r u) = v (ix1 r) :=
  broadcastInDim_apply _ h v (ix2 r u) (ix1 r) fun ax => by
    match ax with
    | ⟨0, _⟩ => show r.val = if n = 1 then 0 else r.val; rw [if_neg hn]

end Cert.Lib.StackReads
-- ==== Proof.RefLayer.lean ====
/-
  The reference program's two graph-convolution layers, read as the layer function of the specification.

  The reference computes, for each layer, relu(((agg * inv[:, None]) @ Wl[l].T + bl[l]) + x @ Wr[l].T).
  Read at node p and output channel c this is
      max ( (∑ k, (agg (p, k) · inv p) · Wl (l, c, k)) + bl (l, c) + ∑ k, x (p, k) · Wr (l, c, k) ) 0 ,
  because slicing layer l out of a weight stack, dropping the unit axis and transposing sends entry (k, c) of the
  right operand of the contraction to entry (l, c, k) of the stack, and the broadcasts of the reciprocal degrees
  and of the bias read entry p and entry (l, c).
-/
import proofs.«160222_j6408091206350_2_alg».proof.Proof.Gen.ReferenceIdeal.Read
import proofs.«160222_j6408091206350_2_alg».proof.Proof.Spec

noncomputable section

namespace Cert.Sage.Ref

open Cert.ReferenceIdeal Cert.ReferenceIdeal.Read Idealize.ShloMosaic Idealize.ShloMosaic.ValueIdx

/-! ## Arithmetic of the flattened weight index -/

/-- Row c, column k of a 128 x 128 matrix, flattened row-major, has row c again. -/
theorem flat_row (c k : Fin 128) : (c.val * 128 + k.val) / 128 % 128 = c.val := by
  have hc := c.isLt; have hk := k.isLt; omega

/-- Row c, column k of a 128 x 128 matrix, flattened row-major, has column k again. -/
theorem flat_col (c k : Fin 128) : (c.val * 128 + k.val) % 128 = k.val := by
  have hc := c.isLt; have hk := k.isLt; omega

/-! ## Layer 0: the operands of the two contractions, the bias and the rectifier's zero, at coordinates -/

/-- The left operand of a contraction is read at row p, column k. -/
theorem lidx29 (p : Fin 100000) (c k : Fin 128) : lidx_main_v29 (ix2 p c) k = ix2 p k := by
  funext a; match a with | ⟨0, _⟩ => rfl | ⟨1, _⟩ => rfl

/-- The right operand of a contraction is read at row k, column c. -/
theorem ridx29 (p : Fin 100000) (c k : Fin 128) : ridx_main_v29 (ix2 p c) k = ix2 k c := by
  funext a; match a with | ⟨0, _⟩ => rfl | ⟨1, _⟩ => rfl

theorem lidx38 (p : Fin 100000) (c k : Fin 128) : lidx_main_v38 (ix2 p c) k = ix2 p k := by
  funext a; match a with | ⟨0, _⟩ => rfl | ⟨1, _⟩ => rfl

theorem ridx38 (p : Fin 100000) (c k : Fin 128) : ridx_main_v38 (ix2 p c) k = ix2 k c := by
  funext a; match a with | ⟨0, _⟩ => rfl | ⟨1, _⟩ => rfl

/-- Entry (k, c) of the transposed layer-0 slice of the first weight stack is entry (0, c, k) of the stack. -/
theorem wl0 (W : (⟨S2x128x128, .f32⟩ : BufTy).Contents (Elt Ideal)) (k c : Fin 128) :
    val_main_v28 (F := Ideal) W (ix2 k c) = W (ix3 0 c k) := by
  rw [val_main_v28_apply, val_main_v27_apply, val_main_v26_apply]
  refine congrArg W (funext fun a => Fin.ext ?_)
  match a with
  | ⟨0, _⟩ => rfl
  | ⟨1, _⟩ => exact flat_row c k
  | ⟨2, _⟩ => exact flat_col c k

/-- Entry (k, c) of the transposed layer-0 slice of the second weight stack is entry (0, c, k) of the stack. -/
theorem wr0 (W : (⟨S2x128x128, .f32⟩ : BufTy).Contents (Elt Ideal)) (k c : Fin 128) :
    val_main_v37 (F := Ideal) W (ix2 k c) = W (ix3 0 c k) := by
  rw [val_main_v37_apply, val_main_v36_apply, val_main_v35_apply]
  refine congrArg W (funext fun a => Fin.ext ?_)
  match a with
  | ⟨0, _⟩ => rfl
  | ⟨1, _⟩ => exact flat_row c k
  | ⟨2, _⟩ => exact flat_col c k

/-- The broadcast layer-0 bias at (p, c) is entry (0, c) of the bias stack. -/
theorem bias0 (B : (⟨S2x128, .f32⟩ : BufTy).Contents (Elt Ideal)) (p : Fin 100000) (c : Fin 128) :
    val_main_v33 (F := Ideal) B (ix2 p c) = B (ix2 0 c) := by
  rw [val_main_v33_apply, val_main_v32_apply, val_main_v31_apply, val_main_v30_apply]
  refine congrArg B (funext fun a => Fin.ext ?_)
  match a with
  | ⟨0, _⟩ => rfl
  | ⟨1, _⟩ => exact Nat.mod_eq_of_lt c.isLt

/-- The reciprocal degrees, broadcast along the channels, at (p, k) are the reciprocal degree of node p. -/
theorem inv0 (x5 : (⟨S2x1600000, .i32⟩ : BufTy).Contents (Elt Ideal)) (p : Fin 100000) (k : Fin 128) :
    val_main_v24 (F := Ideal) x5 (ix2 p k) = val_main_v12 (F := Ideal) x5 (ix1 p) := by
  rw [val_main_v24_apply, val_main_v23_apply]
  refine congrArg (val_main_v12 (F := Ideal) x5) (funext fun a => ?_)
  match a with
  | ⟨0, _⟩ => rfl

/-- The rectifier's zero, broadcast over the array, is the denotation of the all-zero word everywhere. -/
theorem zero0 (i : S100000x128.Idx) :
    val_main_call0_v0 (F := Ideal) i = Ideal.ofBits .f32 0x00000000#32 := by
  rw [val_main_call0_v0_apply, val_main_call0_cst_apply]; rfl

/-! ## Layer 0 -/

/-- One term of the aggregated contraction of layer 0: (agg (p, k) · inv p) · Wl (0, c, k). -/
theorem aggTerm0 (x0 x1 : (⟨S50000x128, .f32⟩ : BufTy).Contents (Elt Ideal))
    (x2 : (⟨S2x128x128, .f32⟩ : BufTy).Contents (Elt Ideal)) (x5 : (⟨S2x1600000, .i32⟩ : BufTy).Contents (Elt Ideal))
    (p : Fin 100000) (c k : Fin 128) :
    val_main_v25 (F := Ideal) x0 x1 x5 (lidx_main_v29 (ix2 p c) k) * val_main_v28 (F := Ideal) x2 (ridx_main_v29 (ix2 p c) k)
      = (val_main_v22 (F := Ideal) x0 x1 x5 (ix2 p k) * val_main_v12 (F := Ideal) x5 (ix1 p)) * x2 (ix3 0 c k) := by
  rw [lidx29, ridx29, wl0, val_main_v25_apply, inv0]; rfl

/-- One term of the self contraction of layer 0: x (p, k) · Wr (0, c, k). -/
theorem selfTerm0 (x0 x1 : (⟨S50000x128, .f32⟩ : BufTy).Contents (Elt Ideal))
    (x4 : (⟨S2x128x128, .f32⟩ : BufTy).Contents (Elt Ideal)) (p : Fin 100000) (c k : Fin 128) :
    val_main_v0 (F := Ideal) x0 x1 (lidx_main_v38 (ix2 p c) k) * val_main_v37 (F := Ideal) x4 (ridx_main_v38 (ix2 p c) k)
      = val_main_v0 (F := Ideal) x0 x1 (ix2 p k) * x4 (ix3 0 c k) := by
  rw [lidx38, ridx38, wr0]

/-- The reference's first layer is the layer function at layer 0, of the scattered neighbour sums, the reciprocal
    degrees and the concatenated node features. -/
theorem layer0 (x0 x1 : (⟨S50000x128, .f32⟩ : BufTy).Contents (Elt Ideal))
    (x2 : (⟨S2x128x128, .f32⟩ : BufTy).Contents (Elt Ideal)) (x3 : (⟨S2x128, .f32⟩ : BufTy).Contents (Elt Ideal))
    (x4 : (⟨S2x128x128, .f32⟩ : BufTy).Contents (Elt Ideal)) (x5 : (⟨S2x1600000, .i32⟩ : BufTy).Contents (Elt Ideal)) :
    Read.val_main_v40 (F := Ideal) x0 x1 x2 x3 x4 x5
      = Cert.Sage.layer (Read.val_main_v22 (F := Ideal) x0 x1 x5) (Read.val_main_v12 (F := Ideal) x5)
          (Read.val_main_v0 (F := Ideal) x0 x1) x2 x4 x3 0 := by
  funext i
  obtain ⟨p, c, rfl⟩ : ∃ (p : Fin 100000) (c : Fin 128), i = ix2 p c := ⟨i 0, i 1, eq_ix2 i⟩
  rw [Cert.Sage.layer_ix2]
  unfold Cert.Sage.layerAt
  rw [val_main_v40_apply, val_main_v39_apply, val_main_v34_apply, val_main_v29_apply, val_main_v38_apply, bias0, zero0]
  rw [Fintype.sum_congr _ _ (aggTerm0 x0 x1 x2 x5 p c), Fintype.sum_congr _ _ (selfTerm0 x0 x1 x4 p c)]
  rfl

/-! ## Layer 1: the same operands, with layer 1 sliced out of the stacks -/

theorem lidx57 (p : Fin 100000) (c k : Fin 128) : lidx_main_v57 (ix2 p c) k = ix2 p k := by
  funext a; match a with | ⟨0, _⟩ => rfl | ⟨1, _⟩ => rfl

theorem ridx57 (p : Fin 100000) (c k : Fin 128) : ridx_main_v57 (ix2 p c) k = ix2 k c := by
  funext a; match a with | ⟨0, _⟩ => rfl | ⟨1, _⟩ => rfl

theorem lidx66 (p : Fin 100000) (c k : Fin 128) : lidx_main_v66 (ix2 p c) k = ix2 p k := by
  funext a; match a with | ⟨0, _⟩ => rfl | ⟨1, _⟩ => rfl

theorem ridx66 (p : Fin 100000) (c k : Fin 128) : ridx_main_v66 (ix2 p c) k = ix2 k c := by
  funext a; match a with | ⟨0, _⟩ => rfl | ⟨1, _⟩ => rfl

/-- Entry (k, c) of the transposed layer-1 slice of the first weight stack is entry (1, c, k) of the stack. -/
theorem wl1 (W : (⟨S2x128x128, .f32⟩ : BufTy).Contents (Elt Ideal)) (k c : Fin 128) :
    val_main_v56 (F := Ideal) W (ix2 k c) = W (ix3 1 c k) := by
  rw [val_main_v56_apply, val_main_v55_apply, val_main_v54_apply]
  refine congrArg W (funext fun a => Fin.ext ?_)
  match a with
  | ⟨0, _⟩ => rfl
  | ⟨1, _⟩ => exact flat_row c k
  | ⟨2, _⟩ => exact flat_col c k

/-- Entry (k, c) of the transposed layer-1 slice of the second weight stack is entry (1, c, k) of the stack. -/
theorem wr1 (W : (⟨S2x128x128, .f32⟩ : BufTy).Contents (Elt Ideal)) (k c : Fin 128) :
    val_main_v65 (F := Ideal) W (ix2 k c) = W (ix3 1 c k) := by
  rw [val_main_v65_apply, val_main_v64_apply, val_main_v63_apply]
  refine congrArg W (funext fun a => Fin.ext ?_)
  match a with
  | ⟨0, _⟩ => rfl
  | ⟨1, _⟩ => exact flat_row c k
  | ⟨2, _⟩ => exact flat_col c k

/-- The broadcast layer-1 bias at (p, c) is entry (1, c) of the bias stack. -/
theorem bias1 (B : (⟨S2x128, .f32⟩ : BufTy).Contents (Elt Ideal)) (p : Fin 100000) (c : Fin 128) :
    val_main_v61 (F := Ideal) B (ix2 p c) = B (ix2 1 c) := by
  rw [val_main_v61_apply, val_main_v60_apply, val_main_v59_apply, val_main_v58_apply]
  refine congrArg B (funext fun a => Fin.ext ?_)
  match a with
  | ⟨0, _⟩ => rfl
  | ⟨1, _⟩ => exact Nat.mod_eq_of_lt c.isLt

/-- The reciprocal degrees, broadcast along the channels a second time, at (p, k) are the reciprocal degree of node p. -/
theorem inv1 (x5 : (⟨S2x1600000, .i32⟩ : BufTy).Contents (Elt Ideal)) (p : Fin 100000) (k : Fin 128) :
    val_main_v52 (F := Ideal) x5 (ix2 p k) = val_main_v12 (F := Ideal) x5 (ix1 p) := by
  rw [val_main_v52_apply, val_main_v51_apply]
  refine congrArg (val_main_v12 (F := Ideal) x5) (funext fun a => ?_)
  match a with
  | ⟨0, _⟩ => rfl

/-- The second rectifier's zero is the denotation of the all-zero word everywhere. -/
theorem zero1 (i : S100000x128.Idx) :
    val_main_call1_v0 (F := Ideal) i = Ideal.ofBits .f32 0x00000000#32 := by
  rw [val_main_call1_v0_apply, val_main_call1_cst_apply]; rfl

/-! ## Layer 1 -/

/-- One term of the aggregated contraction of layer 1: (agg (p, k) · inv p) · Wl (1, c, k). -/
theorem aggTerm1 (x0 x1 : (⟨S50000x128, .f32⟩ : BufTy).Contents (Elt Ideal))
    (x2 : (⟨S2x128x128, .f32⟩ : BufTy).Contents (Elt Ideal)) (x3 : (⟨S2x128, .f32⟩ : BufTy).Contents (Elt Ideal))
    (x4 : (⟨S2x128x128, .f32⟩ : BufTy).Contents (Elt Ideal)) (x5 : (⟨S2x1600000, .i32⟩ : BufTy).Contents (Elt Ideal))
    (p : Fin 100000) (c k : Fin 128) :
    val_main_v53 (F := Ideal) x0 x1 x2 x3 x4 x5 (lidx_main_v57 (ix2 p c) k) * val_main_v56 (F := Ideal) x2 (ridx_main_v57 (ix2 p c) k)
      = (val_main_v50 (F := Ideal) x0 x1 x2 x3 x4 x5 (ix2 p k) * val_main_v12 (F := Ideal) x5 (ix1 p)) * x2 (ix3 1 c k) := by
  rw [lidx57, ridx57, wl1, val_main_v53_apply, inv1]; rfl

/-- One term of the self contraction of layer 1: h (p, k) · Wr (1, c, k), h the first layer's output. -/
theorem selfTerm1 (x0 x1 : (⟨S50000x128, .f32⟩ : BufTy).Contents (Elt Ideal))
    (x2 : (⟨S2x128x128, .f32⟩ : BufTy).Contents (Elt Ideal)) (x3 : (⟨S2x128, .f32⟩ : BufTy).Contents (Elt Ideal))
    (x4 : (⟨S2x128x128, .f32⟩ : BufTy).Contents (Elt Ideal)) (x5 : (⟨S2x1600000, .i32⟩ : BufTy).Contents (Elt Ideal))
    (p : Fin 100000) (c k : Fin 128) :
    val_main_v40 (F := Ideal) x0 x1 x2 x3 x4 x5 (lidx_main_v66 (ix2 p c) k) * val_main_v65 (F := Ideal) x4 (ridx_main_v66 (ix2 p c) k)
      = val_main_v40 (F := Ideal) x0 x1 x2 x3 x4 x5 (ix2 p k) * x4 (ix3 1 c k) := by
  rw [lidx66, ridx66, wr1]

/-- The reference's second layer is the layer function at layer 1, of the second scattered neighbour sums, the
    reciprocal degrees and the first layer's output. -/
theorem layer1 (x0 x1 : (⟨S50000x128, .f32⟩ : BufTy).Contents (Elt Ideal))
    (x2 : (⟨S2x128x128, .f32⟩ : BufTy).Contents (Elt Ideal)) (x3 : (⟨S2x128, .f32⟩ : BufTy).Contents (Elt Ideal))
    (x4 : (⟨S2x128x128, .f32⟩ : BufTy).Contents (Elt Ideal)) (x5 : (⟨S2x1600000, .i32⟩ : BufTy).Contents (Elt Ideal)) :
    Read.val_main_v68 (F := Ideal) x0 x1 x2 x3 x4 x5
      = Cert.Sage.layer (Read.val_main_v50 (F := Ideal) x0 x1 x2 x3 x4 x5) (Read.val_main_v12 (F := Ideal) x5)
          (Read.val_main_v40 (F := Ideal) x0 x1 x2 x3 x4 x5) x2 x4 x3 1 := by
  funext i
  obtain ⟨p, c, rfl⟩ : ∃ (p : Fin 100000) (c : Fin 128), i = ix2 p c := ⟨i 0, i 1, eq_ix2 i⟩
  rw [Cert.Sage.layer_ix2]
  unfold Cert.Sage.layerAt
  rw [val_main_v68_apply, val_main_v67_apply, val_main_v62_apply, val_main_v57_apply, val_main_v66_apply, bias1, zero1]
  rw [Fintype.sum_congr _ _ (aggTerm1 x0 x1 x2 x3 x4 x5 p c), Fintype.sum_congr _ _ (selfTerm1 x0 x1 x2 x3 x4 x5 p c)]
  rfl

end Cert.Sage.Ref

end
-- ==== Proof.Bridge.lean ====
/-
  The two programs compute one function.

  Written with the kernel program's own host operations, the first region's output is `dense` of the neighbour sums of
  the rounded node features, the reciprocal-degree column, the rounded features, the transposed first weight
  matrices and the first bias row (`k0`), and the second region's output is `dense` of the same data taken from
  `k0` and the second weights and bias (`k1`). On the extended reals a rounding is the identity, so the neighbour sums,
  the degrees and the features are, term for term, the reference's; the layouts are read back to the reference's
  arrays entry by entry; and `dense` is the reference's layer. So `k0` and `k1` are the reference's two layer
  outputs, and each result, a block of rows of `k1`, is the reference's result.
-/
import proofs.«160222_j6408091206350_2_alg».proof.Proof.KernelRun
import proofs.«160222_j6408091206350_2_alg».proof.Proof.KernelHost
import proofs.«160222_j6408091206350_2_alg».proof.Proof.Region0
import proofs.«160222_j6408091206350_2_alg».proof.Proof.Region1
import proofs.«160222_j6408091206350_2_alg».proof.Proof.DenseLayer
import proofs.«160222_j6408091206350_2_alg».proof.Proof.LibStackReads
import proofs.«160222_j6408091206350_2_alg».proof.Proof.RefLayer

set_option maxRecDepth 16384

noncomputable section

namespace Cert.Sage.Bridge

open Idealize.ShloMosaic Idealize.ShloMosaic.TcCoe Idealize.ShloMosaic.ValueIdx Idealize.SL.Sem
open Cert.KernelIdeal Cert.KernelIdeal.HostValue Cert.Sage.Kernel

section Arrays

variable (x0 x1 : (⟨S50000x128, .f32⟩ : BufTy).Contents (Elt Ideal)) (x2 : (⟨S2x128x128, .f32⟩ : BufTy).Contents (Elt Ideal))
  (x3 : (⟨S2x128, .f32⟩ : BufTy).Contents (Elt Ideal)) (x4 : (⟨S2x128x128, .f32⟩ : BufTy).Contents (Elt Ideal))
  (x5 : (⟨S2x1600000, .i32⟩ : BufTy).Contents (Elt Ideal))

/-- The node features as the kernel program carries them: rounded, which changes nothing here. -/
def feat : (⟨S100000x128, .bf16⟩ : BufTy).Contents (Elt Ideal) :=
  truncf (F := Ideal) .bf16 (nodes (F := Ideal) x0 x1) Gen.bitsLt_bf16_f32

/-- The first region's output, from the argument arrays. -/
def k0 : S100000x128.Idx → EReal :=
  dense (agg (F := Ideal) (feat x0 x1) x5) (invCol (F := Ideal) x5)
    (feat x0 x1) (wBlock0 (F := Ideal) x2) (wBlock0 (F := Ideal) x4) (bRow0 (F := Ideal) x3)

/-- The second region's output, from the argument arrays. -/
def k1 : S100000x128.Idx → EReal :=
  dense (agg (F := Ideal) (k0 x0 x1 x2 x3 x4 x5) x5) (invCol (F := Ideal) x5) (k0 x0 x1 x2 x3 x4 x5)
    (wBlock1 (F := Ideal) x2) (wBlock1 (F := Ideal) x4) (bRow1 (F := Ideal) x3)

/-- The degree column holds the reference's reciprocal degrees. -/
theorem invCol_apply (r : Fin 100000) :
    invCol (F := Ideal) x5 (ix2 r (0 : Fin 1)) = Cert.ReferenceIdeal.Read.val_main_v12 (F := Ideal) x5 (ix1 r) := by
  unfold invCol
  exact Cert.Lib.StackReads.column_apply (by decide) _ _ r (0 : Fin 1)

/-- The kernel's weight matrices are the stacks' matrices, input channel first. -/
theorem wBlock0_apply (w : (⟨S2x128x128, .f32⟩ : BufTy).Contents (Elt Ideal)) (k c : Fin 128) :
    wBlock0 (F := Ideal) w (ix2 k c) = w (ix3 (0 : Fin 2) c k) := by
  unfold wBlock0 wT
  exact Cert.Lib.StackReads.transposed_matrix_apply 0 w _ _ _ (0 : Fin 2) rfl k c

theorem wBlock1_apply (w : (⟨S2x128x128, .f32⟩ : BufTy).Contents (Elt Ideal)) (k c : Fin 128) :
    wBlock1 (F := Ideal) w (ix2 k c) = w (ix3 (1 : Fin 2) c k) := by
  unfold wBlock1 wT
  exact Cert.Lib.StackReads.transposed_matrix_apply 1 w _ _ _ (1 : Fin 2) rfl k c

/-- The kernel's bias rows are the rows of the bias stack. -/
theorem bRow0_apply (c : Fin 128) : bRow0 (F := Ideal) x3 (ix2 (0 : Fin 1) c) = x3 (ix2 (0 : Fin 2) c) := by
  unfold bRow0
  exact Cert.Lib.StackReads.kept_row_apply 0 x3 _ _ _ (0 : Fin 2) rfl (0 : Fin 1) c

theorem bRow1_apply (c : Fin 128) : bRow1 (F := Ideal) x3 (ix2 (0 : Fin 1) c) = x3 (ix2 (1 : Fin 2) c) := by
  unfold bRow1
  exact Cert.Lib.StackReads.kept_row_apply 1 x3 _ _ _ (1 : Fin 2) rfl (0 : Fin 1) c

/-- Rounding the node features changes nothing: they are the reference's. -/
theorem feat_eq : feat x0 x1 = Cert.ReferenceIdeal.Read.val_main_v0 (F := Ideal) x0 x1 := rfl

/-- The two programs gather with the same dimension record along the same source indices. -/
theorem gather_eq (X : S100000x128.Idx → EReal) :
    (Host.gather gather_S100000x128_S1600000x1_S1600000x128_1_0_n_n_0_1_1128 X (srcIdx (F := Ideal) x5) : S1600000x128.Idx → EReal)
      = Host.gather Cert.ReferenceIdeal.gather_S100000x128_S1600000x1_S1600000x128_1_0_n_n_0_1_1128 X
          (Cert.ReferenceIdeal.Read.val_main_v18 (F := Ideal) x5) := rfl

/-- The kernel program's neighbour sums of any features are the reference's scatter-add of its gather: the widening
    between the two is the identity. -/
theorem agg_eq (X : S100000x128.Idx → EReal) :
    agg (F := Ideal) X x5
      = Host.scatterAdd (F := Ideal) (φ := .f32) Cert.ReferenceIdeal.scatter_S100000x128_S1600000x1_S1600000x128_1_0_0_1
          (Cert.ReferenceIdeal.Read.val_main_v20 (F := Ideal)) (Cert.ReferenceIdeal.Read.val_main_v21 (F := Ideal) x5)
          (Host.gather Cert.ReferenceIdeal.gather_S100000x128_S1600000x1_S1600000x128_1_0_n_n_0_1_1128 X
            (Cert.ReferenceIdeal.Read.val_main_v18 (F := Ideal) x5)) := by
  unfold agg
  have e : extf (F := Ideal) .f32 (Host.gather gather_S100000x128_S1600000x1_S1600000x128_1_0_n_n_0_1_1128 X (srcIdx (F := Ideal) x5))
      Gen.bitsLt_bf16_f32
      = Host.gather Cert.ReferenceIdeal.gather_S100000x128_S1600000x1_S1600000x128_1_0_n_n_0_1_1128 X
          (Cert.ReferenceIdeal.Read.val_main_v18 (F := Ideal) x5) := by
    funext i
    rw [extf_apply]
    exact congrFun (gather_eq x5 X) i
  rw [e]
  rfl

/-- The first layer's neighbour sums. -/
theorem agg_layer0 : agg (F := Ideal) (Cert.ReferenceIdeal.Read.val_main_v0 (F := Ideal) x0 x1) x5
    = Cert.ReferenceIdeal.Read.val_main_v22 (F := Ideal) x0 x1 x5 :=
  (agg_eq x5 _).trans rfl

/-- The second layer's neighbour sums. -/
theorem agg_layer1 : agg (F := Ideal) (Cert.ReferenceIdeal.Read.val_main_v40 (F := Ideal) x0 x1 x2 x3 x4 x5) x5
    = Cert.ReferenceIdeal.Read.val_main_v50 (F := Ideal) x0 x1 x2 x3 x4 x5 :=
  (agg_eq x5 _).trans rfl

/-- The first region's output is the reference's first layer. -/
theorem k0_eq : k0 x0 x1 x2 x3 x4 x5 = Cert.ReferenceIdeal.Read.val_main_v40 (F := Ideal) x0 x1 x2 x3 x4 x5 := by
  unfold k0
  rw [feat_eq, agg_layer0, Cert.Sage.Ref.layer0]
  exact dense_eq_layer (Cert.ReferenceIdeal.Read.val_main_v22 (F := Ideal) x0 x1 x5) (invCol (F := Ideal) x5)
    (Cert.ReferenceIdeal.Read.val_main_v0 (F := Ideal) x0 x1) (wBlock0 (F := Ideal) x2) (wBlock0 (F := Ideal) x4) (bRow0 (F := Ideal) x3)
    (Cert.ReferenceIdeal.Read.val_main_v12 (F := Ideal) x5) x2 x4 x3 (0 : Fin 2)
    (invCol_apply x5) (wBlock0_apply x2) (wBlock0_apply x4) (bRow0_apply x3)

/-- The second region's output is the reference's second layer. -/
theorem k1_eq : k1 x0 x1 x2 x3 x4 x5 = Cert.ReferenceIdeal.Read.val_main_v68 (F := Ideal) x0 x1 x2 x3 x4 x5 := by
  unfold k1
  rw [k0_eq, agg_layer1, Cert.Sage.Ref.layer1]
  exact dense_eq_layer (Cert.ReferenceIdeal.Read.val_main_v50 (F := Ideal) x0 x1 x2 x3 x4 x5) (invCol (F := Ideal) x5)
    (Cert.ReferenceIdeal.Read.val_main_v40 (F := Ideal) x0 x1 x2 x3 x4 x5) (wBlock1 (F := Ideal) x2) (wBlock1 (F := Ideal) x4)
    (bRow1 (F := Ideal) x3) (Cert.ReferenceIdeal.Read.val_main_v12 (F := Ideal) x5) x2 x4 x3 (1 : Fin 2)
    (invCol_apply x5) (wBlock1_apply x2) (wBlock1_apply x4) (bRow1_apply x3)

/-- Widening an array to the wider format is the identity. -/
theorem widen_eq (Y : S100000x128.Idx → EReal) : extf (F := Ideal) .f32 (Y : FVec Ideal S100000x128 .bf16) Gen.bitsLt_bf16_f32 = Y :=
  funext fun i => extf_apply (φ := .bf16) (ψ := .f32) Y Gen.bitsLt_bf16_f32 i

end Arrays

section Run

variable (m : (ℓ : Loc nD τ sig) → Buf (Elt Ideal) ℓ) (ρ : Dev nD → PrngReg)

/-- The second region's output array after the run, from the launch contents of the arguments. -/
theorem region1_out (c : Dev nD) : (Gen.dat1 (Gen.V3 m ρ) c).arrAt (6 : Fin cfg1.W) cfg1.N
    = k1 (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  rw [Region1.final (Gen.V3 m ρ) c, V3_v46, V3_v13, V3_v35, V3_v48, V3_v50, V3_v53,
    Region0.final (Gen.V1 m ρ) c, V1_v27, V1_v13, V1_v16, V1_v29, V1_v31, V1_v34]
  unfold k1 k0 feat
  rfl

/-- The first result: the reference's first result, when the two programs are launched on the same arguments. -/
theorem result0 (m' : (ℓ : Loc Cert.ReferenceIdeal.nD Cert.ReferenceIdeal.τ Cert.ReferenceIdeal.sig) → Buf (Elt Ideal) ℓ) (c : Dev nD)
    (h : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)) :
    Cert.ReferenceIdeal.Value.res_main_v69 (F := Ideal) m' c = Gen.W5 m ρ c (Proc.devRef .tc main_v56) := by
  rw [Cert.KernelIdeal.ValueRun.out0_eq, region1_out, k1_eq, widen_eq, Cert.ReferenceIdeal.Read.val_main_v69_eq, h.1, h.2.1, h.2.2.1,
    h.2.2.2.1, h.2.2.2.2.1, h.2.2.2.2.2]
  rfl

/-- The second result likewise. -/
theorem result1 (m' : (ℓ : Loc Cert.ReferenceIdeal.nD Cert.ReferenceIdeal.τ Cert.ReferenceIdeal.sig) → Buf (Elt Ideal) ℓ) (c : Dev nD)
    (h : m' ((c.tc : Thread Cert.ReferenceIdeal.nD Cert.ReferenceIdeal.τ).loc Cert.ReferenceIdeal.main_arg0) = m ((c.tc : Thread nD τ).loc main_arg0)
      ∧ m' ((c.tc : Thread Cert.ReferenceIdeal.nD Cert.ReferenceIdeal.τ).loc Cert.ReferenceIdeal.main_arg1) = m ((c.tc : Thread nD τ).loc main_arg1)
      ∧ m' ((c.tc : Thread Cert.ReferenceIdeal.nD Cert.ReferenceIdeal.τ).loc Cert.ReferenceIdeal.main_arg2) = m ((c.tc : Thread nD τ).loc main_arg2)
      ∧ m' ((c.tc : Thread Cert.ReferenceIdeal.nD Cert.ReferenceIdeal.τ).loc Cert.ReferenceIdeal.main_arg3) = m ((c.tc : Thread nD τ).loc main_arg3)
      ∧ m' ((c.tc : Thread Cert.ReferenceIdeal.nD Cert.ReferenceIdeal.τ).loc Cert.ReferenceIdeal.main_arg4) = m ((c.tc : Thread nD τ).loc main_arg4)
      ∧ m' ((c.tc : Thread Cert.ReferenceIdeal.nD Cert.ReferenceIdeal.τ).loc Cert.ReferenceIdeal.main_arg5) = m ((c.tc : Thread nD τ).loc main_arg5)) :
    Cert.ReferenceIdeal.Value.res_main_v70 (F := Ideal) m' c = Gen.W5 m ρ c (Proc.devRef .tc main_v57) := by
  rw [Cert.KernelIdeal.ValueRun.out1_eq, region1_out, k1_eq, widen_eq, Cert.ReferenceIdeal.Read.val_main_v70_eq, h.1, h.2.1, h.2.2.1,
    h.2.2.2.1, h.2.2.2.2.1, h.2.2.2.2.2]
  rfl

end Run

end Cert.Sage.Bridge

end
-- ==== Proof.lean ====
/-
  Two layers of a mean-aggregating graph convolution on 100000 nodes with 128 channels: a kernel program against its
  plain reference, equal on the extended reals.

  Both programs concatenate the two embedding tables into the node features, count the in-degrees by a scatter-add
  of ones over the destination indices, take reciprocals of the degrees clamped below by one, and then twice: gather
  the features along the source indices, scatter-add them along the destination indices (the neighbour sums), and
  apply  relu( (sums · 1/deg) · Wlᵀ + b + x · Wrᵀ ).  The kernel program rounds the features to a narrower format
  between layers, passes the degrees as a column and the weights already transposed, fuses the scaling by 1/deg into
  the dense step, which it runs over 25 blocks of 4000 rows, and adds the bias after both products; the reference
  adds it between them.  On the extended reals a rounding is the identity, a matrix product into a zero accumulator
  and the host's product are the same plain sum, and addition is commutative and associative: nothing else separates
  the two, so no finiteness of the inputs is used.

  The pieces: the stored value of a block at one entry (Payload); each region's output array as one function,
  `dense`, of the arrays the region is entered with (Region0, Region1); the run of the whole kernel program with
  its two result buffers named, and the host operations around the regions read back to the arguments (KernelRun,
  KernelHost); the reference's two layers as the function `layer` of Spec (RefLayer); `dense` on the kernel's
  layouts is `layer` (DenseLayer, LibStackReads); the results agree (Bridge).
-/
import proofs.«160222_j6408091206350_2_alg».proof.Defs
import proofs.«160222_j6408091206350_2_alg».proof.Proof.Gen.Kernel
import proofs.«160222_j6408091206350_2_alg».proof.Proof.Gen.Kernel.Skeleton
import proofs.«160222_j6408091206350_2_alg».proof.Proof.Gen.Kernel.Launch
import proofs.«160222_j6408091206350_2_alg».proof.Proof.Gen.Kernel.Points
import proofs.«160222_j6408091206350_2_alg».proof.Proof.Gen.Kernel.Frame
import proofs.«160222_j6408091206350_2_alg».proof.Proof.Gen.KernelIdeal
import proofs.«160222_j6408091206350_2_alg».proof.Proof.Gen.KernelIdeal.Skeleton
import proofs.«160222_j6408091206350_2_alg».proof.Proof.Gen.KernelIdeal.Launch
import proofs.«160222_j6408091206350_2_alg».proof.Proof.Gen.KernelIdeal.Points
import proofs.«160222_j6408091206350_2_alg».proof.Proof.Gen.KernelIdeal.Frame
import proofs.«160222_j6408091206350_2_alg».proof.Proof.Gen.ReferenceIdeal
import proofs.«160222_j6408091206350_2_alg».proof.Proof.Gen.Pre_finite_inputs
import proofs.«160222_j6408091206350_2_alg».proof.Proof.Gen.ReferenceIdeal.Run
import proofs.«160222_j6408091206350_2_alg».proof.Proof.Gen.ReferenceIdeal.Read
import proofs.«160222_j6408091206350_2_alg».proof.Proof.KernelRun
import proofs.«160222_j6408091206350_2_alg».proof.Proof.Bridge
import Idealize.ShloMosaic.Adequacy
import Idealize.ShloMosaic.Init

noncomputable section

namespace Cert.Proof

open Idealize.ShloMosaic Idealize.SL.Sem

/-- The kernel program as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Launched on the same arguments, the idealized kernel program and the idealized reference end with the same two
    result arrays: the kernel program's at its last boundary's contents, which are the reference's terms. -/
theorem algebraic : Cert.algebraic_KernelIdeal_ReferenceIdeal := by
  intro m ρ m' ρ' _ hagree
  refine ⟨fun c => Cert.KernelIdeal.Gen.W5 m ρ c (Proc.devRef .tc Cert.KernelIdeal.main_v56),
    fun c => Cert.KernelIdeal.Gen.W5 m ρ c (Proc.devRef .tc Cert.KernelIdeal.main_v57),
    Cert.KernelIdeal.ValueRun.run (F := Ideal) m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · exact Cert.Sage.Bridge.result0 m ρ m' c (hagree c)
  · exact Cert.Sage.Bridge.result1 m ρ m' c (hagree c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
